-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096x1 .f32) (main_arg3 : FVec F S4096x4096 .f32) (main_arg4 : IVec S4096x4096 1) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S256x4096 : Shape := ⟨2, ![256, 4096]⟩
abbrev S256x1 : Shape := ⟨2, ![256, 1]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 12
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x4096, .f32⟩
  | .hbm, ⟨4, _⟩ => ⟨S4096x4096, .i1⟩
  | .hbm, ⟨5, _⟩ => ⟨S4096, .f32⟩
  | .hbm, ⟨6, _⟩ => ⟨S4096x4096, .i32⟩
  | .hbm, ⟨7, _⟩ => ⟨S4096x4096, .bf16⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x1, .f32⟩
  | .local _ .vmem, ⟨3, _⟩ => ⟨S256x1, .f32⟩
  | .local _ .vmem, ⟨4, _⟩ => ⟨S256x4096, .f32⟩
  | .local _ .vmem, ⟨5, _⟩ => ⟨S256x4096, .f32⟩
  | .local _ .vmem, ⟨6, _⟩ => ⟨S256x4096, .i32⟩
  | .local _ .vmem, ⟨7, _⟩ => ⟨S256x4096, .i32⟩
  | .local _ .vmem, ⟨8, _⟩ => ⟨S256x4096, .bf16⟩
  | .local _ .vmem, ⟨9, _⟩ => ⟨S256x4096, .bf16⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | .local _ .vmem, ⟨13, _⟩ => ⟨S2048x512, .bf16⟩
  | .local _ .vmem, ⟨14, _⟩ => ⟨S1x2048, .f32⟩
  | .local _ .vmem, ⟨15, _⟩ => ⟨S1x2048, .f32⟩
  | .local _ .vmem, ⟨16, _⟩ => ⟨S1024x2048, .f32⟩
  | .local _ .vmem, ⟨17, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 2, 8], ![false, false, false]⟩

def k1_cond1 (i : grid1.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k1_cond2 (i : grid1.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def k1_cond3 (i : grid1.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_6 : BitVec 32 := 0#32
  let v14 : BitVec 1 := Scalar.cmpi .ne v13 c0_i32_6
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  natLt_1_32 : 1 < 32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .i32 = 32 ∨ (Rect.block (s := S4096x4096) S256x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) && !(k1_cond3 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096x4096, .f32⟩
  | .hbm, ⟨4, _⟩ => ⟨S4096x4096, .i1⟩
  | .hbm, ⟨5, _⟩ => ⟨S4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.K.Reg0.lean ====
/-
  Region 0 of the quantized linear layer, in the program over machine words: the dequantization call, on a grid of 16 points, one block of 256 weight
  rows per point. Stated at any float instance and at any contents V of the core's buffers when the region is
  entered. Each of the four inputs (quantized weights, per-row scales, outliers, mask words) is read whole from its
  current staging buffer, the output's staging buffer is read once (a value nothing depends on), and ONE store fills
  the whole output staging buffer with the dequantized block, a pure function of the four input blocks. So what the
  body leaves in the output window's buffer at point t is that function of the four blocks of the entry contents at
  t, and every input's buffer still holds its block.
-/
import proofs.«103409_j90598040142545_2_alg».proof.Proof.Gen.Kernel.Launch
import proofs.«103409_j90598040142545_2_alg».proof.Proof.Gen.Kernel.Skeleton
import proofs.«103409_j90598040142545_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there:
    unfetched, the block index has not moved. For any proof data whose array is the entry contents and whose body
    leaves the block in place; the window is uncut and never idle. Window 0: the quantized weights. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1: the per-row scales. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2: the outliers. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3: the mask words. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 256 x 4096 buffer, as a rectangle. -/
abbrev r0_0 : Rect S256x4096 := Rect.unit (s := S256x4096) ![0, 0] S256x4096.size inb_S256x4096_S256x4096_0_0
/-- The whole 256 x 1 buffer, as a rectangle. -/
abbrev r0_1 : Rect S256x1 := Rect.unit (s := S256x1) ![0, 0] S256x1.size inb_S256x1_S256x1_0_0

/-! ## What the body leaves in the output window's buffer -/

/-- Window 4's staging buffer after the body, from the four input blocks (x0 quantized weights, x1 scales, x2
    outliers, x3 mask words): its one store, whose payload takes the weights, the scales, the MASK and then the
    OUTLIERS. -/
def out0_4 (x0 : Vec F S256x4096 .i32) (x1 : Vec F S256x1 .f32) (x2 : Vec F S256x4096 .f32) (x3 : Vec F S256x4096 .i32) :
    Vec F S256x4096 .bf16 :=
  View.canon [⟨r0_0, k0_pay1 (View.ld x0 r0_0) (View.ld x1 r0_1) (View.ld x3 r0_0) (View.ld x2 r0_0)⟩]

/-- The one store's rectangle is the whole buffer, so it covers it. -/
theorem cover0_4 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-! ## The body's triple -/

set_option maxHeartbeats 1000000 in
/-- The body on whole staging memrefs, the inputs' at read contents x0..x3 and the output's at anything, runs to the
    continuation holding the inputs' as they were and the output's at out0_4 of the inputs'. The load of the output
    buffer reads whatever it holds; nothing depends on it. -/
theorem sound_kernel0 (c : Dev nD) (E : Set ℕ) (i : grid0.Coords)
    (arg1 : Memref sig .tc .vmem S256x4096 .i32) (harg1 : arg1.IsWhole) (arg2 : Memref sig .tc .vmem S256x1 .f32) (harg2 : arg2.IsWhole)
    (arg3 : Memref sig .tc .vmem S256x4096 .f32) (harg3 : arg3.IsWhole) (arg4 : Memref sig .tc .vmem S256x4096 .i32) (harg4 : arg4.IsWhole)
    (arg5 : Memref sig .tc .vmem S256x4096 .bf16) (harg5 : arg5.IsWhole)
    (x0 : Vec F S256x4096 .i32) (x1 : Vec F S256x1 .f32) (x2 : Vec F S256x4096 .f32) (x3 : Vec F S256x4096 .i32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__dequant_kernel i arg1 harg1 arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each
    input's buffer at its block and the output's at out0_4 of the four input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Reg1Runs.lean ====
/-
  The matrix-product region's body, case by case. The grid is (row tile, column tile, chunk of the contracted
  axis); the last coordinate k runs fastest. The body computes the partial product of its two input blocks and
  then, depending on k only: at k = 0 it stores the partial product into the output block; at k ≠ 0 it adds the
  partial product to what the block holds; at k = 7, after that, it adds the bias row to every row of the block.
  So three cases occur: k = 0 (first store only), 0 < k < 7 (accumulate), k = 7 (accumulate, then bias).
  Each case is stated as a subtype: the list of pieces the output buffer ends with (each a rectangle of the
  block and the value stored there, last first), with the proof that the body runs to exactly those pieces.
-/
import proofs.«103409_j90598040142545_2_alg».proof.Proof.Gen.Kernel.Launch
import proofs.«103409_j90598040142545_2_alg».proof.Proof.Gen.Kernel.Skeleton
import proofs.«103409_j90598040142545_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, in closed form over the grid -/

theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
theorem hcond1_2 : ∀ t : Fin cfg1.N, k1_cond2 (grid1.coords t) = 1#1 ↔ t.val % 8 ≠ 0 :=
  (by decide +kernel : ∀ t : Fin grid1.N, k1_cond2 (grid1.coords t) = 1#1 ↔ t.val % 8 ≠ 0)
theorem hcond1_3 : ∀ t : Fin cfg1.N, k1_cond3 (grid1.coords t) = 1#1 ↔ t.val % 8 = 7 :=
  (by decide +kernel : ∀ t : Fin grid1.N, k1_cond3 (grid1.coords t) = 1#1 ↔ t.val % 8 = 7)

/-- The output window is stored into at every point: k = 0 or k ≠ 0. -/
theorem live1_3 : ∀ i : grid1.Coords, cfg1.idle 3 i = false := by
  intro i
  have h : ∀ k : Fin 8, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)
      && !(Scalar.cmpi .ne (Scalar.extui (Scalar.cmpi .eq (BitVec.ofNat 32 k.val) 7#32)) 0#32 == 1#1)) = false := by decide
  exact h (i 2)

/-! ## The staging memrefs at a point -/

abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

/-! ## The body, case by case -/

set_option maxHeartbeats 1000000 in
/-- k = 0: the output block, whatever it held, ends holding the partial product. -/
noncomputable def kernelRun1_A (c : Dev nD) (i : grid1.Coords) (arg3 : Memref sig .tc .vmem S1024x512 .f32) (harg3 : arg3.IsWhole)
    (arg4 : Memref sig .tc .vmem S2048x512 .bf16) (harg4 : arg4.IsWhole) (arg5 : Memref sig .tc .vmem S1x2048 .f32) (harg5 : arg5.IsWhole)
    (arg6 : Memref sig .tc .vmem S1024x2048 .f32) (harg6 : arg6.IsWhole)
    (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

set_option maxHeartbeats 1000000 in
/-- 0 < k < 7: the output block ends holding what it held plus the partial product. -/
noncomputable def kernelRun1_B (c : Dev nD) (i : grid1.Coords) (arg3 : Memref sig .tc .vmem S1024x512 .f32) (harg3 : arg3.IsWhole)
    (arg4 : Memref sig .tc .vmem S2048x512 .bf16) (harg4 : arg4.IsWhole) (arg5 : Memref sig .tc .vmem S1x2048 .f32) (harg5 : arg5.IsWhole)
    (arg6 : Memref sig .tc .vmem S1024x2048 .f32) (harg6 : arg6.IsWhole)
    (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

set_option maxHeartbeats 1000000 in
/-- k = 7: the output block ends holding what it held plus the partial product plus, in every row, the bias row. -/
noncomputable def kernelRun1_C (c : Dev nD) (i : grid1.Coords) (arg3 : Memref sig .tc .vmem S1024x512 .f32) (harg3 : arg3.IsWhole)
    (arg4 : Memref sig .tc .vmem S2048x512 .bf16) (harg4 : arg4.IsWhole) (arg5 : Memref sig .tc .vmem S1x2048 .f32) (harg5 : arg5.IsWhole)
    (arg6 : Memref sig .tc .vmem S1024x2048 .f32) (harg6 : arg6.IsWhole)
    (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.Kernel.Fr

end
-- ==== Proof.K.Reg1.lean ====
/-
  The matrix-product region: what its output block holds after each grid point, the proof data, and the body
  obligation. The output block of tile (row tile, column tile) is carried in its staging buffer over the eight
  chunks k = 0..7 of the contracted axis and written back after k = 7: after point t it holds, by recursion on t,
  the first partial product (k = 0), or what point t - 1 left plus this point's partial product (k > 0), plus the
  bias row at k = 7. The three input windows are only read, so each holds its block at every point.
-/
import proofs.«103409_j90598040142545_2_alg».proof.Proof.K.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window that the body only reads holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block -/

theorem cover1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 hc1 hc2 hc3 x0 x1 x2).1, y ∈ pc.1.set :=
  View.cover_of_tiledL (kernelRun1_A c i arg3 harg3 arg4 harg4 arg5 harg5 arg6 harg6 hc1 hc2 hc3 x0 x1 x2).1 S1024x2048.size (by sl_kernel_rfl) y

/-- The output block after a point with k = 0. -/
def out1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) : Vec F S1024x2048 .f32 :=
  VO1_3.read (Elt F) (VO1_3.writes (Elt F) VO1_3.junk (kernelRun1_A c i arg3 harg3 arg4 harg4 arg5 harg5 arg6 harg6 hc1 hc2 hc3 x0 x1 x2).1)

theorem cover1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) (y : S1024x2048.Idx) :
    ∃ pc ∈ (kernelRun1_B c i arg3 harg3 arg4 harg4 arg5 harg5 arg6 harg6 hc1 hc2 hc3 x0 x1 x2 xo).1, y ∈ pc.1.set :=
  View.cover_of_tiledL (kernelRun1_B c i arg3 harg3 arg4 harg4 arg5 harg5 arg6 harg6 hc1 hc2 hc3 x0 x1 x2 xo).1 S1024x2048.size (by sl_kernel_rfl) y

/-- The output block after a point with 0 < k < 7, from what it held. -/
def out1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) : Vec F S1024x2048 .f32 :=
  VO1_3.read (Elt F) (VO1_3.writes (Elt F) VO1_3.junk (kernelRun1_B c i arg3 harg3 arg4 harg4 arg5 harg5 arg6 harg6 hc1 hc2 hc3 x0 x1 x2 xo).1)

theorem cover1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) (y : S1024x2048.Idx) :
    ∃ pc ∈ (kernelRun1_C c i arg3 harg3 arg4 harg4 arg5 harg5 arg6 harg6 hc1 hc2 hc3 x0 x1 x2 xo).1, y ∈ pc.1.set :=
  View.cover_of_tiledL (kernelRun1_C c i arg3 harg3 arg4 harg4 arg5 harg5 arg6 harg6 hc1 hc2 hc3 x0 x1 x2 xo).1 S1024x2048.size (by sl_kernel_rfl) y

/-- The output block after a point with k = 7, from what it held. -/
def out1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) : Vec F S1024x2048 .f32 :=
  VO1_3.read (Elt F) (VO1_3.writes (Elt F) VO1_3.junk (kernelRun1_C c i arg3 harg3 arg4 harg4 arg5 harg5 arg6 harg6 hc1 hc2 hc3 x0 x1 x2 xo).1)

/-! ## The conditions at a point, from the chunk number -/

theorem c1_of (t : Fin cfg1.N) (h : t.val % 8 = 0) : k1_cond1 (grid1.coords t) = 1#1 := (hcond1_1 t).mpr h
theorem nc1_of (t : Fin cfg1.N) (h : ¬t.val % 8 = 0) : ¬k1_cond1 (grid1.coords t) = 1#1 := fun e => h ((hcond1_1 t).mp e)
theorem c2_of (t : Fin cfg1.N) (h : ¬t.val % 8 = 0) : k1_cond2 (grid1.coords t) = 1#1 := (hcond1_2 t).mpr h
theorem nc2_of (t : Fin cfg1.N) (h : t.val % 8 = 0) : ¬k1_cond2 (grid1.coords t) = 1#1 := fun e => (hcond1_2 t).mp e h
theorem c3_of (t : Fin cfg1.N) (h : t.val % 8 = 7) : k1_cond3 (grid1.coords t) = 1#1 := (hcond1_3 t).mpr h
theorem nc3_of (t : Fin cfg1.N) (h : ¬t.val % 8 = 7) : ¬k1_cond3 (grid1.coords t) = 1#1 := fun e => h ((hcond1_3 t).mp e)

/-! ## The accumulation: what the output block holds after each point -/

/-- What the output window's staging buffer holds after the body at position `n`. -/
def outsAt1 (c : Dev nD) : (n : ℕ) → n < cfg1.N → Vec F S1024x2048 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (c1_of ⟨0, hn⟩ (Nat.zero_mod _)) (nc2_of ⟨0, hn⟩ (Nat.zero_mod _)) (nc3_of ⟨0, hn⟩ (by dsimp only; omega))
      (iblk1 V c 0 ⟨0, hn⟩) (iblk1 V c 1 ⟨0, hn⟩) (iblk1 V c 2 ⟨0, hn⟩)
  | n + 1, hn =>
    if h0 : (n + 1) % 8 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (c1_of ⟨n + 1, hn⟩ h0) (nc2_of ⟨n + 1, hn⟩ h0) (nc3_of ⟨n + 1, hn⟩ (by dsimp only; omega))
        (iblk1 V c 0 ⟨n + 1, hn⟩) (iblk1 V c 1 ⟨n + 1, hn⟩) (iblk1 V c 2 ⟨n + 1, hn⟩)
    else if h7 : (n + 1) % 8 = 7 then
      out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (nc1_of ⟨n + 1, hn⟩ h0) (c2_of ⟨n + 1, hn⟩ h0) (c3_of ⟨n + 1, hn⟩ h7)
        (iblk1 V c 0 ⟨n + 1, hn⟩) (iblk1 V c 1 ⟨n + 1, hn⟩) (iblk1 V c 2 ⟨n + 1, hn⟩) (outsAt1 c n (Nat.lt_of_succ_lt hn))
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (nc1_of ⟨n + 1, hn⟩ h0) (c2_of ⟨n + 1, hn⟩ h0) (nc3_of ⟨n + 1, hn⟩ h7)
        (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 8 = 0) :
    outsAt1 V c t.val t.isLt = out1_A_3 c (grid1.coords t) (ms1_0 t) (hs1_0 t) (ms1_1 t) (hs1_1 t) (ms1_2 t) (hs1_2 t) (ms1_3 t) (hs1_3 t) (c1_of t h0) (nc2_of t h0) (nc3_of t (by omega))
      (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 8 = 0) (h7 : ¬t.val % 8 = 7) :
    outsAt1 V c t.val t.isLt = out1_B_3 c (grid1.coords t) (ms1_0 t) (hs1_0 t) (ms1_1 t) (hs1_1 t) (ms1_2 t) (hs1_2 t) (ms1_3 t) (hs1_3 t) (nc1_of t h0) (c2_of t h0) (nc3_of t h7)
      (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h7).trans rfl)

theorem outsAt1_C (c : Dev nD) (t : Fin cfg1.N) (h0 : ¬t.val % 8 = 0) (h7 : t.val % 8 = 7) :
    outsAt1 V c t.val t.isLt = out1_C_3 c (grid1.coords t) (ms1_0 t) (hs1_0 t) (ms1_1 t) (hs1_1 t) (ms1_2 t) (hs1_2 t) (ms1_3 t) (hs1_3 t) (nc1_of t h0) (c2_of t h0) (c3_of t h7)
      (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h7).trans rfl)

/-! ## The proof data -/

/-- The proof data of the matrix-product pipeline on core `c`: the arrays as the region finds them; after the body
    at point `t` each input's buffer at its block and the output's at the accumulation; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with k > 0 the output's staging buffer holds what the body left at the point before: the buffer
    is written back only after k = 7, and the next point then has k = 0. -/
theorem before1_3_acc (c : Dev nD) (t : Fin cfg1.N) (h0 : ¬t.val % 8 = 0) (d) :
    (dat1 V c).before 3 t d = outsAt1 V c (t.val - 1) (Nat.lt_of_le_of_lt (Nat.sub_le _ _) t.isLt) := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    live1_3 (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks; the chunk number says which case the point is
    in; for k > 0 the output's buffer holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 8 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) (ms1_0 t) (hs1_0 t) (ms1_1 t) (hs1_1 t) (ms1_2 t) (hs1_2 t) (ms1_3 t) (hs1_3 t) (c1_of t h0) (nc2_of t h0) (nc3_of t (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 _ _ _ _ _ _ _ _ _ _ _ _ _ _ _ _)
  · simp only [before1_3_acc V c t h0]
    by_cases h7 : t.val % 8 = 7
    · rw [outsAt1_C V c t h0 h7]
      unfold out1_C_3
      iintro ⟨HΦ, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) (nc1_of t h0) (c2_of t h0) (c3_of t h7) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 _ _ _ _ _ _ _ _ _ _ _ _ _ _ _ _ _)
    · rw [outsAt1_B V c t h0 h7]
      unfold out1_B_3
      iintro ⟨HΦ, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) (nc1_of t h0) (c2_of t h0) (nc3_of t h7) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 _ _ _ _ _ _ _ _ _ _ _ _ _ _ _ _ _)

end Cert.Kernel.Fr

end
-- ==== Proof.K.Reg1Ob.lean ====
/-
  The matrix-product region's body obligation, at every point: the output window is stored into at every point.
-/
import proofs.«103409_j90598040142545_2_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 400000 in
/-- The library's body obligation, at every point. -/
theorem body_obligation1 (c : Dev nD) : BodyObligation (dat1 (F := F) V c) (defs₀ (F := F)) Variants.none () Set.univ := fun t => by
  rw [bigSep_W1, bigSep_W1]
  have h3 : idle1 3 (grid1.coords t) = false := live1_3 _
  simp only [h3]
  exact sound_body1 V c t

end Cert.Kernel.Fr

end
-- ==== Proof.K.Run.lean ====
/-
  The whole run of the program: a stretch of host operations (the mask widened to words), the dequantization
  region, a stretch (the input flattened to rows, the bias made a row), the matrix-product region, a last stretch
  (the rows unflattened). The buffers' contents at each boundary are folded forward from the launch memory: a host
  stretch applies its operations; a region leaves each of its arrays at what its write-backs leave and every other
  buffer alone. The run ends with every unscoped buffer at the last boundary's contents; the argument arrays,
  which no stretch and no region writes, are there as launched.
-/
import proofs.«103409_j90598040142545_2_alg».proof.Proof.K.Reg0
import proofs.«103409_j90598040142545_2_alg».proof.Proof.K.Reg1Ob
import proofs.«103409_j90598040142545_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the dequantization region's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the dequantization region: its arrays at what the write-backs leave. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the second host stretch: the matrix-product region's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the matrix-product region. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the last host stretch: the end. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 0).trans (((dat0 (U1 m) c).arrAt_in 0 rfl _).trans (A_eq0 (U1 m) c 0))
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 1).trans (((dat0 (U1 m) c).arrAt_in 1 rfl _).trans (A_eq0 (U1 m) c 1))
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := (W2_arr m c 2).trans (((dat0 (U1 m) c).arrAt_in 2 rfl _).trans (A_eq0 (U1 m) c 2))
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

/-! ## The proof data family, the thread state, the segments -/

abbrev admF : (p : Fin 2) → (pcfgs (F := F) p).Adm := fun p => (cfgs p).toPCfg_adm
/-- Every pipeline's proof data at its region's entry contents. -/
def pdatsF : (p : Fin 2) → (c : Dev nD) → Dat τ (Elt F) Unit ℕ (UR sig nD τ) ℕ (Pipeline.pin (pcfgs (F := F)) admF p) c
  | ⟨0, _⟩ => fun c => dat0 (U1 m) c
  | ⟨1, _⟩ => fun c => dat1 (U3 m) c
abbrev 𝒱F : Variants := Variants.none
abbrev LF : GSem nD τ sig → Finset Unit := fun _ => ∅
abbrev lvF : GSem nD τ sig → Unit → ℕ := fun _ _ => 0
/-- What rides beside the buffers through every segment: the generator register at some state and nothing owed. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at `W1`, left at `W2`. Its arrays are split
    out of the unscoped buffers at entry and put back at what the write-backs leave at exit; the generator register
    goes into the body's invariant and comes back; nothing is owed; the kernel has no semaphore of its own. -/
def reg0 : Pipeline.RegionSeg (pcfgs (F := F)) admF (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LF lvF 0 fun _ _ => rfl
  pre c := iprop(StableHlo.held (c : Thread nD τ) (Pipeline.ucRefs τ sig) (W1 m c) ∗ RF c)
  post c := iprop(StableHlo.held (c : Thread nD τ) (Pipeline.ucRefs τ sig) (W2 m c) ∗ RF c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admF (pdatsF m) launch0.win launch0.arr_whole c
      ((pdatsF m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m) ((pdatsF m 0 c).share_full fun _ => rfl)
      (U1 m c) (U2 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. Its arrays are split
    out of the unscoped buffers at entry and put back at what the write-backs leave at exit; the generator register
    goes into the body's invariant and comes back; nothing is owed; the kernel has no semaphore of its own. -/
def reg1 : Pipeline.RegionSeg (pcfgs (F := F)) admF (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LF lvF 1 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admF (pdatsF m) launch1.win launch1.arr_whole c
      ((pdatsF m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m) ((pdatsF m 1 c).share_full fun _ => rfl)
      (U3 m c) (U4 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsF : List (Pipeline.Seg (pcfgs (F := F)) admF (pdatsF m) () defs₀ 𝒱F LF lvF) :=
  [ .host (hsegF hostOps0 hostOps0_sub hostOps0_fresh (W0 m)),
    .region (reg0 m),
    .host (hsegF hostOps1 hostOps1_sub hostOps1_fresh (W2 m)),
    .region (reg1 m),
    .host (hsegF hostOps2 hostOps2_sub hostOps2_fresh (W4 m)) ]
theorem main_run (c : Dev nD) : main (F := F) c = Pipeline.Seg.run (segsF m) := (main_chain c).trans (by chain_rfl)

set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) admF (pdatsF m) () cellOf_inj emb₁ defs₀ 𝒱F LF lvF m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RF c)) (Tₙ := TnF m)
    (hch := ⟨fun _ => .rfl, fun _ => .rfl, fun _ => .rfl, fun _ => .rfl, fun _ => .rfl, fun c => by
      show iprop(StableHlo.held (c : Thread nD τ) (Pipeline.ucRefs τ sig) (W5 m c) ∗ RF c)
        ⊢ iprop(TnF m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.Kernel.Fr

end
-- ==== Proof.KI.Reg0.lean ====
/-
  Region 0 of the quantized linear layer: the dequantization call, on a grid of 16 points, one block of 256 weight
  rows per point. Stated at any float instance and at any contents V of the core's buffers when the region is
  entered. Each of the four inputs (quantized weights, per-row scales, outliers, mask words) is read whole from its
  current staging buffer, the output's staging buffer is read once (a value nothing depends on), and ONE store fills
  the whole output staging buffer with the dequantized block, a pure function of the four input blocks. So what the
  body leaves in the output window's buffer at point t is that function of the four blocks of the entry contents at
  t, and every input's buffer still holds its block.
-/
import proofs.«103409_j90598040142545_2_alg».proof.Proof.Gen.KernelIdeal.Launch
import proofs.«103409_j90598040142545_2_alg».proof.Proof.Gen.KernelIdeal.Skeleton
import proofs.«103409_j90598040142545_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether or not it was fetched there:
    unfetched, the block index has not moved. For any proof data whose array is the entry contents and whose body
    leaves the block in place; the window is uncut and never idle. Window 0: the quantized weights. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1: the per-row scales. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2: the outliers. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3: the mask words. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 256 x 4096 buffer, as a rectangle. -/
abbrev r0_0 : Rect S256x4096 := Rect.unit (s := S256x4096) ![0, 0] S256x4096.size inb_S256x4096_S256x4096_0_0
/-- The whole 256 x 1 buffer, as a rectangle. -/
abbrev r0_1 : Rect S256x1 := Rect.unit (s := S256x1) ![0, 0] S256x1.size inb_S256x1_S256x1_0_0

/-! ## What the body leaves in the output window's buffer -/

/-- Window 4's staging buffer after the body, from the four input blocks (x0 quantized weights, x1 scales, x2
    outliers, x3 mask words): its one store, whose payload takes the weights, the scales, the MASK and then the
    OUTLIERS. -/
def out0_4 (x0 : Vec F S256x4096 .i32) (x1 : Vec F S256x1 .f32) (x2 : Vec F S256x4096 .f32) (x3 : Vec F S256x4096 .i32) :
    Vec F S256x4096 .bf16 :=
  View.canon [⟨r0_0, k0_pay1 (View.ld x0 r0_0) (View.ld x1 r0_1) (View.ld x3 r0_0) (View.ld x2 r0_0)⟩]

/-- The one store's rectangle is the whole buffer, so it covers it. -/
theorem cover0_4 (p0 : Vec F S256x4096 .bf16) (y : S256x4096.Idx) :
    ∃ pc ∈ ([⟨r0_0, p0⟩] : List (View.Piece (Elt F) S256x4096 .bf16)), y ∈ pc.1.set :=
  View.cover_of_tiled [⟨r0_0, p0⟩] S256x4096.size (by rfl) y

/-! ## The body's triple -/

set_option maxHeartbeats 1000000 in
/-- The body on whole staging memrefs, the inputs' at read contents x0..x3 and the output's at anything, runs to the
    continuation holding the inputs' as they were and the output's at out0_4 of the inputs'. The load of the output
    buffer reads whatever it holds; nothing depends on it. -/
theorem sound_kernel0 (c : Dev nD) (E : Set ℕ) (i : grid0.Coords)
    (arg1 : Memref sig .tc .vmem S256x4096 .i32) (harg1 : arg1.IsWhole) (arg2 : Memref sig .tc .vmem S256x1 .f32) (harg2 : arg2.IsWhole)
    (arg3 : Memref sig .tc .vmem S256x4096 .f32) (harg3 : arg3.IsWhole) (arg4 : Memref sig .tc .vmem S256x4096 .i32) (harg4 : arg4.IsWhole)
    (arg5 : Memref sig .tc .vmem S256x4096 .bf16) (harg5 : arg5.IsWhole)
    (x0 : Vec F S256x4096 .i32) (x1 : Vec F S256x1 .f32) (x2 : Vec F S256x4096 .f32) (x3 : Vec F S256x4096 .i32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__dequant_kernel i arg1 harg1 arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core c: the arrays as the region finds them; after the body at point t each
    input's buffer at its block and the output's at out0_4 of the four input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the invariant and the
    core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Reg1Runs.lean ====
/-
  The matrix-product region's body, case by case. The grid is (row tile, column tile, chunk of the contracted
  axis); the last coordinate k runs fastest. The body computes the partial product of its two input blocks and
  then, depending on k only: at k = 0 it stores the partial product into the output block; at k ≠ 0 it adds the
  partial product to what the block holds; at k = 7, after that, it adds the bias row to every row of the block.
  So three cases occur: k = 0 (first store only), 0 < k < 7 (accumulate), k = 7 (accumulate, then bias).
  Each case is stated as a subtype: the list of pieces the output buffer ends with (each a rectangle of the
  block and the value stored there, last first), with the proof that the body runs to exactly those pieces.
-/
import proofs.«103409_j90598040142545_2_alg».proof.Proof.Gen.KernelIdeal.Launch
import proofs.«103409_j90598040142545_2_alg».proof.Proof.Gen.KernelIdeal.Skeleton
import proofs.«103409_j90598040142545_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, in closed form over the grid -/

theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
theorem hcond1_2 : ∀ t : Fin cfg1.N, k1_cond2 (grid1.coords t) = 1#1 ↔ t.val % 8 ≠ 0 :=
  (by decide +kernel : ∀ t : Fin grid1.N, k1_cond2 (grid1.coords t) = 1#1 ↔ t.val % 8 ≠ 0)
theorem hcond1_3 : ∀ t : Fin cfg1.N, k1_cond3 (grid1.coords t) = 1#1 ↔ t.val % 8 = 7 :=
  (by decide +kernel : ∀ t : Fin grid1.N, k1_cond3 (grid1.coords t) = 1#1 ↔ t.val % 8 = 7)

/-- The output window is stored into at every point: k = 0 or k ≠ 0. -/
theorem live1_3 : ∀ i : grid1.Coords, cfg1.idle 3 i = false := by
  intro i
  have h : ∀ k : Fin 8, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)
      && !(Scalar.cmpi .ne (Scalar.extui (Scalar.cmpi .eq (BitVec.ofNat 32 k.val) 7#32)) 0#32 == 1#1)) = false := by decide
  exact h (i 2)

/-! ## The staging memrefs at a point -/

abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

/-! ## The body, case by case -/

set_option maxHeartbeats 1000000 in
/-- k = 0: the output block, whatever it held, ends holding the partial product. -/
noncomputable def kernelRun1_A (c : Dev nD) (i : grid1.Coords) (arg3 : Memref sig .tc .vmem S1024x512 .f32) (harg3 : arg3.IsWhole)
    (arg4 : Memref sig .tc .vmem S2048x512 .bf16) (harg4 : arg4.IsWhole) (arg5 : Memref sig .tc .vmem S1x2048 .f32) (harg5 : arg5.IsWhole)
    (arg6 : Memref sig .tc .vmem S1024x2048 .f32) (harg6 : arg6.IsWhole)
    (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

set_option maxHeartbeats 1000000 in
/-- 0 < k < 7: the output block ends holding what it held plus the partial product. -/
noncomputable def kernelRun1_B (c : Dev nD) (i : grid1.Coords) (arg3 : Memref sig .tc .vmem S1024x512 .f32) (harg3 : arg3.IsWhole)
    (arg4 : Memref sig .tc .vmem S2048x512 .bf16) (harg4 : arg4.IsWhole) (arg5 : Memref sig .tc .vmem S1x2048 .f32) (harg5 : arg5.IsWhole)
    (arg6 : Memref sig .tc .vmem S1024x2048 .f32) (harg6 : arg6.IsWhole)
    (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

set_option maxHeartbeats 1000000 in
/-- k = 7: the output block ends holding what it held plus the partial product plus, in every row, the bias row. -/
noncomputable def kernelRun1_C (c : Dev nD) (i : grid1.Coords) (arg3 : Memref sig .tc .vmem S1024x512 .f32) (harg3 : arg3.IsWhole)
    (arg4 : Memref sig .tc .vmem S2048x512 .bf16) (harg4 : arg4.IsWhole) (arg5 : Memref sig .tc .vmem S1x2048 .f32) (harg5 : arg5.IsWhole)
    (arg6 : Memref sig .tc .vmem S1024x2048 .f32) (harg6 : arg6.IsWhole)
    (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xo
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)) -∗ K ⟨⟩))
          ⊢ wp frame (wpE (defs₀ (F := F)) Variants.none c none) E (cc1__matmul_kernel i arg3 harg3 arg4 harg4 arg5 harg5 arg6 harg6) K } := by
  refine ⟨?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Fr

end
-- ==== Proof.KI.Reg1.lean ====
/-
  The matrix-product region: what its output block holds after each grid point, the proof data, and the body
  obligation. The output block of tile (row tile, column tile) is carried in its staging buffer over the eight
  chunks k = 0..7 of the contracted axis and written back after k = 7: after point t it holds, by recursion on t,
  the first partial product (k = 0), or what point t - 1 left plus this point's partial product (k > 0), plus the
  bias row at k = 7. The three input windows are only read, so each holds its block at every point.
-/
import proofs.«103409_j90598040142545_2_alg».proof.Proof.KI.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window that the body only reads holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block -/

theorem cover1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) (y : S1024x2048.Idx) :
    ∃ pc ∈ (kernelRun1_A c i arg3 harg3 arg4 harg4 arg5 harg5 arg6 harg6 hc1 hc2 hc3 x0 x1 x2).1, y ∈ pc.1.set :=
  View.cover_of_tiledL (kernelRun1_A c i arg3 harg3 arg4 harg4 arg5 harg5 arg6 harg6 hc1 hc2 hc3 x0 x1 x2).1 S1024x2048.size (by sl_kernel_rfl) y

/-- The output block after a point with k = 0. -/
def out1_A_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) : Vec F S1024x2048 .f32 :=
  VO1_3.read (Elt F) (VO1_3.writes (Elt F) VO1_3.junk (kernelRun1_A c i arg3 harg3 arg4 harg4 arg5 harg5 arg6 harg6 hc1 hc2 hc3 x0 x1 x2).1)

theorem cover1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) (y : S1024x2048.Idx) :
    ∃ pc ∈ (kernelRun1_B c i arg3 harg3 arg4 harg4 arg5 harg5 arg6 harg6 hc1 hc2 hc3 x0 x1 x2 xo).1, y ∈ pc.1.set :=
  View.cover_of_tiledL (kernelRun1_B c i arg3 harg3 arg4 harg4 arg5 harg5 arg6 harg6 hc1 hc2 hc3 x0 x1 x2 xo).1 S1024x2048.size (by sl_kernel_rfl) y

/-- The output block after a point with 0 < k < 7, from what it held. -/
def out1_B_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) : Vec F S1024x2048 .f32 :=
  VO1_3.read (Elt F) (VO1_3.writes (Elt F) VO1_3.junk (kernelRun1_B c i arg3 harg3 arg4 harg4 arg5 harg5 arg6 harg6 hc1 hc2 hc3 x0 x1 x2 xo).1)

theorem cover1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) (y : S1024x2048.Idx) :
    ∃ pc ∈ (kernelRun1_C c i arg3 harg3 arg4 harg4 arg5 harg5 arg6 harg6 hc1 hc2 hc3 x0 x1 x2 xo).1, y ∈ pc.1.set :=
  View.cover_of_tiledL (kernelRun1_C c i arg3 harg3 arg4 harg4 arg5 harg5 arg6 harg6 hc1 hc2 hc3 x0 x1 x2 xo).1 S1024x2048.size (by sl_kernel_rfl) y

/-- The output block after a point with k = 7, from what it held. -/
def out1_C_3 (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) : Vec F S1024x2048 .f32 :=
  VO1_3.read (Elt F) (VO1_3.writes (Elt F) VO1_3.junk (kernelRun1_C c i arg3 harg3 arg4 harg4 arg5 harg5 arg6 harg6 hc1 hc2 hc3 x0 x1 x2 xo).1)

/-! ## The conditions at a point, from the chunk number -/

theorem c1_of (t : Fin cfg1.N) (h : t.val % 8 = 0) : k1_cond1 (grid1.coords t) = 1#1 := (hcond1_1 t).mpr h
theorem nc1_of (t : Fin cfg1.N) (h : ¬t.val % 8 = 0) : ¬k1_cond1 (grid1.coords t) = 1#1 := fun e => h ((hcond1_1 t).mp e)
theorem c2_of (t : Fin cfg1.N) (h : ¬t.val % 8 = 0) : k1_cond2 (grid1.coords t) = 1#1 := (hcond1_2 t).mpr h
theorem nc2_of (t : Fin cfg1.N) (h : t.val % 8 = 0) : ¬k1_cond2 (grid1.coords t) = 1#1 := fun e => (hcond1_2 t).mp e h
theorem c3_of (t : Fin cfg1.N) (h : t.val % 8 = 7) : k1_cond3 (grid1.coords t) = 1#1 := (hcond1_3 t).mpr h
theorem nc3_of (t : Fin cfg1.N) (h : ¬t.val % 8 = 7) : ¬k1_cond3 (grid1.coords t) = 1#1 := fun e => h ((hcond1_3 t).mp e)

/-! ## The accumulation: what the output block holds after each point -/

/-- What the output window's staging buffer holds after the body at position `n`. -/
def outsAt1 (c : Dev nD) : (n : ℕ) → n < cfg1.N → Vec F S1024x2048 .f32
  | 0, hn => out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (c1_of ⟨0, hn⟩ (Nat.zero_mod _)) (nc2_of ⟨0, hn⟩ (Nat.zero_mod _)) (nc3_of ⟨0, hn⟩ (by dsimp only; omega))
      (iblk1 V c 0 ⟨0, hn⟩) (iblk1 V c 1 ⟨0, hn⟩) (iblk1 V c 2 ⟨0, hn⟩)
  | n + 1, hn =>
    if h0 : (n + 1) % 8 = 0 then
      out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (c1_of ⟨n + 1, hn⟩ h0) (nc2_of ⟨n + 1, hn⟩ h0) (nc3_of ⟨n + 1, hn⟩ (by dsimp only; omega))
        (iblk1 V c 0 ⟨n + 1, hn⟩) (iblk1 V c 1 ⟨n + 1, hn⟩) (iblk1 V c 2 ⟨n + 1, hn⟩)
    else if h7 : (n + 1) % 8 = 7 then
      out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (nc1_of ⟨n + 1, hn⟩ h0) (c2_of ⟨n + 1, hn⟩ h0) (c3_of ⟨n + 1, hn⟩ h7)
        (iblk1 V c 0 ⟨n + 1, hn⟩) (iblk1 V c 1 ⟨n + 1, hn⟩) (iblk1 V c 2 ⟨n + 1, hn⟩) (outsAt1 c n (Nat.lt_of_succ_lt hn))
    else
      out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (nc1_of ⟨n + 1, hn⟩ h0) (c2_of ⟨n + 1, hn⟩ h0) (nc3_of ⟨n + 1, hn⟩ h7)
        (iblk1 V c 0 ⟨n + 1, hn⟩) (iblk1 V c 1 ⟨n + 1, hn⟩) (iblk1 V c 2 ⟨n + 1, hn⟩) (outsAt1 c n (Nat.lt_of_succ_lt hn))

theorem outsAt1_A (c : Dev nD) (t : Fin cfg1.N) (h0 : t.val % 8 = 0) :
    outsAt1 V c t.val t.isLt = out1_A_3 c (grid1.coords t) (ms1_0 t) (hs1_0 t) (ms1_1 t) (hs1_1 t) (ms1_2 t) (hs1_2 t) (ms1_3 t) (hs1_3 t) (c1_of t h0) (nc2_of t h0) (nc3_of t (by omega))
      (iblk1 V c 0 t) (iblk1 V c 1 t) (iblk1 V c 2 t) := by
  obtain ⟨n, hn⟩ := t
  cases n with
  | zero => exact rfl
  | succ n => exact (dif_pos h0).trans rfl

theorem outsAt1_B (c : Dev nD) (t : Fin cfg1.N) (h0 : ¬t.val % 8 = 0) (h7 : ¬t.val % 8 = 7) :
    outsAt1 V c t.val t.isLt = out1_B_3 c (grid1.coords t) (ms1_0 t) (hs1_0 t) (ms1_1 t) (hs1_1 t) (ms1_2 t) (hs1_2 t) (ms1_3 t) (hs1_3 t) (nc1_of t h0) (c2_of t h0) (nc3_of t h7)
      (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h7).trans rfl)

theorem outsAt1_C (c : Dev nD) (t : Fin cfg1.N) (h0 : ¬t.val % 8 = 0) (h7 : t.val % 8 = 7) :
    outsAt1 V c t.val t.isLt = out1_C_3 c (grid1.coords t) (ms1_0 t) (hs1_0 t) (ms1_1 t) (hs1_1 t) (ms1_2 t) (hs1_2 t) (ms1_3 t) (hs1_3 t) (nc1_of t h0) (c2_of t h0) (c3_of t h7)
      (iblk1 V c 0 t) (iblk1 V c 1 t) (iblk1 V c 2 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h7).trans rfl)

/-! ## The proof data -/

/-- The proof data of the matrix-product pipeline on core `c`: the arrays as the region finds them; after the body
    at point `t` each input's buffer at its block and the output's at the accumulation; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a point with k > 0 the output's staging buffer holds what the body left at the point before: the buffer
    is written back only after k = 7, and the next point then has k = 0. -/
theorem before1_3_acc (c : Dev nD) (t : Fin cfg1.N) (h0 : ¬t.val % 8 = 0) (d) :
    (dat1 V c).before 3 t d = outsAt1 V c (t.val - 1) (Nat.lt_of_le_of_lt (Nat.sub_le _ _) t.isLt) := by
  have hN : t.val < 128 := lt_of_lt_of_eq t.isLt (show cfg1.N = 128 from N_1)
  rw [Dat.before_out_kept _ 3 rfl t (by omega) (Bool.eq_false_iff.mpr fun h => by have := (flush1_3 _).mp h; dsimp only at this; omega)
    live1_3 (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1600000 in
/-- The body at any point: the inputs' buffers hold their blocks; the chunk number says which case the point is
    in; for k > 0 the output's buffer holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 8 = 0
  · rw [outsAt1_A V c t h0]
    unfold out1_A_3
    iintro ⟨HΦ, Ho, ⟨%d0, H0⟩, ⟨%d1, H1⟩, ⟨%d2, H2⟩, ⟨%d3, H3⟩⟩
    iapply ((kernelRun1_A c (grid1.coords t) (ms1_0 t) (hs1_0 t) (ms1_1 t) (hs1_1 t) (ms1_2 t) (hs1_2 t) (ms1_3 t) (hs1_3 t) (c1_of t h0) (nc2_of t h0) (nc3_of t (by omega)) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A_3 _ _ _ _ _ _ _ _ _ _ _ _ _ _ _ _)
  · simp only [before1_3_acc V c t h0]
    by_cases h7 : t.val % 8 = 7
    · rw [outsAt1_C V c t h0 h7]
      unfold out1_C_3
      iintro ⟨HΦ, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) (nc1_of t h0) (c2_of t h0) (c3_of t h7) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 _ _ _ _ _ _ _ _ _ _ _ _ _ _ _ _ _)
    · rw [outsAt1_B V c t h0 h7]
      unfold out1_B_3
      iintro ⟨HΦ, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) (nc1_of t h0) (c2_of t h0) (nc3_of t h7) (iblk1 V c 0 t) (iblk1 V c 1 t) (iblk1 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_B_3 _ _ _ _ _ _ _ _ _ _ _ _ _ _ _ _ _)

end Cert.KernelIdeal.Fr

end
-- ==== Proof.KI.Reg1Ob.lean ====
/-
  The matrix-product region's body obligation, at every point: the output window is stored into at every point.
-/
import proofs.«103409_j90598040142545_2_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 400000 in
/-- The library's body obligation, at every point. -/
theorem body_obligation1 (c : Dev nD) : BodyObligation (dat1 (F := F) V c) (defs₀ (F := F)) Variants.none () Set.univ := fun t => by
  rw [bigSep_W1, bigSep_W1]
  have h3 : idle1 3 (grid1.coords t) = false := live1_3 _
  simp only [h3]
  exact sound_body1 V c t

end Cert.KernelIdeal.Fr

end
-- ==== Proof.KI.Run.lean ====
/-
  The whole run of the program: a stretch of host operations (the mask widened to words), the dequantization
  region, a stretch (the input flattened to rows, the bias made a row), the matrix-product region, a last stretch
  (the rows unflattened). The buffers' contents at each boundary are folded forward from the launch memory: a host
  stretch applies its operations; a region leaves each of its arrays at what its write-backs leave and every other
  buffer alone. The run ends with every unscoped buffer at the last boundary's contents; the argument arrays,
  which no stretch and no region writes, are there as launched.
-/
import proofs.«103409_j90598040142545_2_alg».proof.Proof.KI.Reg0
import proofs.«103409_j90598040142545_2_alg».proof.Proof.KI.Reg1Ob
import proofs.«103409_j90598040142545_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch: the dequantization region's entry. -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the dequantization region: its arrays at what the write-backs leave. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the second host stretch: the matrix-product region's entry. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the matrix-product region. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- After the last host stretch: the end. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := (W2_arr m c 0).trans (((dat0 (U1 m) c).arrAt_in 0 rfl _).trans (A_eq0 (U1 m) c 0))
    _ = W0 m c (Proc.devRef .tc main_arg1) := StableHlo.after_of_writes_sub hostOps0 _ hostOps0_writes (r := main_arg1) (by decide)
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 1).trans (((dat0 (U1 m) c).arrAt_in 1 rfl _).trans (A_eq0 (U1 m) c 1))
    _ = W0 m c (Proc.devRef .tc main_arg2) := StableHlo.after_of_writes_sub hostOps0 _ hostOps0_writes (r := main_arg2) (by decide)
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := (W2_arr m c 2).trans (((dat0 (U1 m) c).arrAt_in 2 rfl _).trans (A_eq0 (U1 m) c 2))
    _ = W0 m c (Proc.devRef .tc main_arg3) := StableHlo.after_of_writes_sub hostOps0 _ hostOps0_writes (r := main_arg3) (by decide)
    _ = m ((c : Thread nD τ).loc main_arg3) := rfl

theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W5_main_arg5 (c : Dev nD) : W5 m c (Proc.devRef .tc main_arg5) = m ((c : Thread nD τ).loc main_arg5) :=
  calc W5 m c (Proc.devRef .tc main_arg5)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

/-! ## The proof data family, the thread state, the segments -/

abbrev admF : (p : Fin 2) → (pcfgs (F := F) p).Adm := fun p => (cfgs p).toPCfg_adm
/-- Every pipeline's proof data at its region's entry contents. -/
def pdatsF : (p : Fin 2) → (c : Dev nD) → Dat τ (Elt F) Unit ℕ (UR sig nD τ) ℕ (Pipeline.pin (pcfgs (F := F)) admF p) c
  | ⟨0, _⟩ => fun c => dat0 (U1 m) c
  | ⟨1, _⟩ => fun c => dat1 (U3 m) c
abbrev 𝒱F : Variants := Variants.none
abbrev LF : GSem nD τ sig → Finset Unit := fun _ => ∅
abbrev lvF : GSem nD τ sig → Unit → ℕ := fun _ _ => 0
/-- What rides beside the buffers through every segment: the generator register at some state and nothing owed. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (W5 m c) ∗ ∃ r, prngReg c r)

set_option backward.isDefEq.respectTransparency.types false in
/-- Region 0 over the thread state: entered with every unscoped buffer at `W1`, left at `W2`. Its arrays are split
    out of the unscoped buffers at entry and put back at what the write-backs leave at exit; the generator register
    goes into the body's invariant and comes back; nothing is owed; the kernel has no semaphore of its own. -/
def reg0 : Pipeline.RegionSeg (pcfgs (F := F)) admF (pdatsF m) () defs₀ 𝒱F LF lvF 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LF lvF 0 fun _ _ => rfl
  pre c := iprop(StableHlo.held (c : Thread nD τ) (Pipeline.ucRefs τ sig) (W1 m c) ∗ RF c)
  post c := iprop(StableHlo.held (c : Thread nD τ) (Pipeline.ucRefs τ sig) (W2 m c) ∗ RF c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admF (pdatsF m) launch0.win launch0.arr_whole c
      ((pdatsF m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m) ((pdatsF m 0 c).share_full fun _ => rfl)
      (U1 m c) (U2 m c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. Its arrays are split
    out of the unscoped buffers at entry and put back at what the write-backs leave at exit; the generator register
    goes into the body's invariant and comes back; nothing is owed; the kernel has no semaphore of its own. -/
def reg1 : Pipeline.RegionSeg (pcfgs (F := F)) admF (pdatsF m) () defs₀ 𝒱F LF lvF 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ LF lvF 1 fun _ _ => rfl
  pre c := iprop(StableHlo.held (c : Thread nD τ) (Pipeline.ucRefs τ sig) (W3 m c) ∗ RF c)
  post c := iprop(StableHlo.held (c : Thread nD τ) (Pipeline.ucRefs τ sig) (W4 m c) ∗ RF c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) admF (pdatsF m) launch1.win launch1.arr_whole c
      ((pdatsF m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsF m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdatsF m) ((pdatsF m 1 c).share_full fun _ => rfl)
      (U3 m c) (U4 m c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segsF : List (Pipeline.Seg (pcfgs (F := F)) admF (pdatsF m) () defs₀ 𝒱F LF lvF) :=
  [ .host (hsegF hostOps0 hostOps0_sub hostOps0_fresh (W0 m)),
    .region (reg0 m),
    .host (hsegF hostOps1 hostOps1_sub hostOps1_fresh (W2 m)),
    .region (reg1 m),
    .host (hsegF hostOps2 hostOps2_sub hostOps2_fresh (W4 m)) ]
theorem main_run (c : Dev nD) : main (F := F) c = Pipeline.Seg.run (segsF m) := (main_chain c).trans (by chain_rfl)

set_option backward.isDefEq.respectTransparency.types false in
/-- THE RUN: from any memory with zero counters every weakly fair execution of the program terminates, nothing
    faulting, and every unscoped buffer ends at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) admF (pdatsF m) () cellOf_inj emb₁ defs₀ 𝒱F LF lvF m ρ main (segsF m)
    (fun c Q => by rw [main_run m c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RF c)) (Tₙ := TnF m)
    (hch := ⟨fun _ => .rfl, fun _ => .rfl, fun _ => .rfl, fun _ => .rfl, fun _ => .rfl, fun c => by
      show iprop(StableHlo.held (c : Thread nD τ) (Pipeline.ucRefs τ sig) (W5 m c) ∗ RF c)
        ⊢ iprop(TnF m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach LF lvF fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ)

end Cert.KernelIdeal.Fr

end
-- ==== Proof.Spec.lean ====
/-
  The specification of the quantized linear layer, over the extended reals and over literal shapes; no program is
  imported. A weight is the full-precision outlier where the mask bit is set and otherwise the stored integer, read
  signed, times its output channel's scale; an output entry is the inner product of an input row with a weight row,
  plus the channel's bias. The sum runs over all 4096 input features at once.
-/
import Idealize.ShloMosaic.PureOps.Ideal
import Idealize.ShloMosaic.Lib.ValueIdx

noncomputable section

open scoped BigOperators

namespace Cert.QLin

open Idealize.ShloMosaic Idealize.ShloMosaic.ValueIdx

/-- The weight matrix's shape, [out, in]. -/
abbrev SW : Shape := ⟨2, ![4096, 4096]⟩
/-- The per-channel scales' shape, [out, 1]. -/
abbrev SS : Shape := ⟨2, ![4096, 1]⟩
/-- The input's and the output's shape, [batch, sequence, features]. -/
abbrev SX : Shape := ⟨3, ![4, 2048, 4096]⟩
/-- The bias's shape, [out]. -/
abbrev SB : Shape := ⟨1, ![4096]⟩

/-- One reconstructed weight: the outlier `o` where the mask bit `b` is set, else the integer `q` (signed) times the scale `s`. -/
def wcell (q : BitVec 32) (s o : EReal) (b : BitVec 1) : EReal :=
  if b = 1#1 then o else ((q.toInt : ℝ) : EReal) * s

/-- The reconstructed weight matrix: entry (n, i) from the quantized weight, channel `n`'s scale, the outlier and the mask bit there. -/
def wfull (q : SW.Idx → BitVec 32) (s : SS.Idx → EReal) (o : SW.Idx → EReal) (msk : SW.Idx → BitVec 1) : SW.Idx → EReal :=
  fun j => wcell (q j) (s (ix2 (j 0) (0 : Fin 1))) (o j) (msk j)

/-- The layer: output (b, r, n) is the sum over the input features `i` of x(b, r, i) · W(n, i), plus bias(n). -/
def linear (x : SX.Idx → EReal) (w : SW.Idx → EReal) (bias : SB.Idx → EReal) : SX.Idx → EReal :=
  fun j => (∑ i : Fin 4096, x (ix3 (j 0) (j 1) i) * w (ix2 (j 2) i)) + bias (ix1 (j 2))

/-- The whole claim's right-hand side: the layer at the reconstructed weights. -/
def layer (x : SX.Idx → EReal) (q : SW.Idx → BitVec 32) (s : SS.Idx → EReal) (o : SW.Idx → EReal) (msk : SW.Idx → BitVec 1)
    (bias : SB.Idx → EReal) : SX.Idx → EReal :=
  linear x (wfull q s o msk) bias

end Cert.QLin

end
-- ==== Proof.KI.Glue.lean ====
/-
  The kernel's result as a function of its arguments, at the ideal instance, given what the two regions leave in
  their output arrays. The first host stretch widens each mask bit to a word, so "the word is not zero" is the bit;
  the second flattens the input [4, 2048, 4096] to rows [8192, 4096] and makes the bias a row [1, 4096]; the last
  unflattens the rows of the product. Flattening and unflattening only re-index (row b * 2048 + r of the flat array
  is row (b, r)), so the result at (b, r, n) is the inner product of input row (b, r) with weight row n over all
  4096 features, plus bias n: the layer of the specification.
-/
import proofs.«103409_j90598040142545_2_alg».proof.Proof.KI.Run
import proofs.«103409_j90598040142545_2_alg».proof.Proof.Spec
import Idealize.ShloMosaic.Lib.ValueIdx
import Idealize.ShloMosaic.Lib.Pipeline.Value
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.QLin

variable (m : (ℓ : Loc nD τ sig) → Buf (Elt Ideal) ℓ)

/-! ## Buffers no stretch or region before the point of use has written -/

theorem W1_of (c : Dev nD) (r : Ref sig .tc) (h : r ∉ hostOps0_W) : W1 m c (Proc.devRef .tc r) = m ((c : Thread nD τ).loc r) :=
  StableHlo.after_of_writes_sub hostOps0 _ hostOps0_writes h
theorem W2_arg0 (c : Dev nD) : W2 m c (Proc.devRef .tc main_arg0) = m ((c : Thread nD τ).loc main_arg0) :=
  (W2_of_ne m c main_arg0 (by decide)).trans (W1_of m c main_arg0 (by decide))
theorem W2_arg5 (c : Dev nD) : W2 m c (Proc.devRef .tc main_arg5) = m ((c : Thread nD τ).loc main_arg5) :=
  (W2_of_ne m c main_arg5 (by decide)).trans (W1_of m c main_arg5 (by decide))

/-- A mask bit widened to a word is not zero exactly when the bit is set. -/
theorem ne_zero_extui (b : BitVec 1) : IntOp.cmpi .ne (b.setWidth 32) 0#32 = b := by
  rcases BitVec.eq_zero_or_eq_one b with h | h <;> subst h <;> decide

/-- The widened mask, as the dequantization region finds it. -/
theorem U1_v0 (c : Dev nD) (j : S4096x4096.Idx) :
    (U1 m c main_v0 : S4096x4096.Idx → BitVec 32) j = ((m ((c : Thread nD τ).loc main_arg4) : S4096x4096.Idx → BitVec 1) j).setWidth 32 := by
  have e : (U1 m c main_v0 : S4096x4096.Idx → BitVec 32)
      = extui 32 (m ((c : Thread nD τ).loc main_arg4) : S4096x4096.Idx → BitVec 1) natLt_1_32 := by
    show StableHlo.after hostOps0 _ (Proc.devRef .tc main_v0) = _
    after_results
  rw [e] <;> rfl

/-- The flattened input, as the matrix-product region finds it. -/
theorem U3_v2 (c : Dev nD) :
    (U3 m c main_v2 : S8192x4096.Idx → EReal)
      = shapeCast S8192x4096 (W2 m c (Proc.devRef .tc main_arg0) : S4x2048x4096.Idx → EReal) shapeCasts_S4x2048x4096_S8192x4096 := by
  show StableHlo.after hostOps1 _ (Proc.devRef .tc main_v2) = _
  after_results; rfl

/-- The bias as a row, as the matrix-product region finds it. -/
theorem U3_v3 (c : Dev nD) :
    (U3 m c main_v3 : S1x4096.Idx → EReal)
      = shapeCast S1x4096 (W2 m c (Proc.devRef .tc main_arg5) : S4096.Idx → EReal) shapeCasts_S4096_S1x4096 := by
  show StableHlo.after hostOps1 _ (Proc.devRef .tc main_v3) = _
  after_results; rfl

/-- The result, unflattened from the matrix-product region's output. -/
theorem W5_v5 (c : Dev nD) :
    (W5 m c (Proc.devRef .tc main_v5) : S4x2048x4096.Idx → EReal)
      = shapeCast S4x2048x4096 (W4 m c (Proc.devRef .tc main_v4) : S8192x4096.Idx → EReal) shapeCasts_S8192x4096_S4x2048x4096 := by
  show StableHlo.after hostOps2 _ (Proc.devRef .tc main_v5) = _
  after_results; rfl

/-! ## Flattening read at an index -/

theorem flat_row_lt (b : Fin 4) (r : Fin 2048) : b.val * 2048 + r.val < 8192 := by have := b.isLt; have := r.isLt; omega

theorem flatten_apply (x : S4x2048x4096.Idx → EReal) (b : Fin 4) (r : Fin 2048) (i : Fin 4096) :
    shapeCast S8192x4096 x shapeCasts_S4x2048x4096_S8192x4096 (ix2 (⟨b.val * 2048 + r.val, flat_row_lt b r⟩ : Fin 8192) i) = x (ix3 b r i) := by
  refine shapeCast_apply x _ _ (ix3 b r i) ?_
  rw [Shape.rowMajor_val_three, Shape.rowMajor_val_two]
  rfl

theorem unflatten_apply (y : S8192x4096.Idx → EReal) (b : Fin 4) (r : Fin 2048) (n : Fin 4096) :
    shapeCast S4x2048x4096 y shapeCasts_S8192x4096_S4x2048x4096 (ix3 b r n) = y (ix2 (⟨b.val * 2048 + r.val, flat_row_lt b r⟩ : Fin 8192) n) := by
  refine shapeCast_apply y _ _ (ix2 (⟨b.val * 2048 + r.val, flat_row_lt b r⟩ : Fin 8192) n) ?_
  rw [Shape.rowMajor_val_three, Shape.rowMajor_val_two]
  rfl

theorem row_apply (v : S4096.Idx → EReal) (n : Fin 4096) :
    shapeCast S1x4096 v shapeCasts_S4096_S1x4096 (ix2 (0 : Fin 1) n) = v (ix1 n) := by
  refine shapeCast_apply v _ _ (ix1 n) ?_
  rw [Shape.rowMajor_val_one, Shape.rowMajor_val_two]
  show n.val = 0 * 4096 + n.val
  omega

/-! ## The result -/

/-- The matrix-product region's input arrays as it finds them: the flattened input, the weights, the bias row. -/
abbrev xflat (c : Dev nD) : S8192x4096.Idx → EReal := U3 m c main_v2
abbrev wts (c : Dev nD) : S4096x4096.Idx → EReal := U3 m c main_v1
abbrev brow (c : Dev nD) : S1x4096.Idx → EReal := U3 m c main_v3
/-- The dequantization region's input arrays as it finds them. -/
abbrev deqQ (c : Dev nD) : S4096x4096.Idx → BitVec 32 := U1 m c main_arg1
abbrev deqS (c : Dev nD) : S4096x1.Idx → EReal := U1 m c main_arg2
abbrev deqO (c : Dev nD) : S4096x4096.Idx → EReal := U1 m c main_arg3
abbrev deqM (c : Dev nD) : S4096x4096.Idx → BitVec 32 := U1 m c main_v0

/-- Given what the two regions leave in their output arrays — the dequantization region the reconstructed weights,
    the matrix-product region the rows' inner products with the weight rows plus the bias —, the program's result
    is the layer of the specification at the launch contents of the argument arrays. -/
theorem kernel_value (c : Dev nD)
    (hf0 : (dat0 (F := Ideal) (U1 m) c).arrAt 4 cfg0.N
      = fun j => wcell (deqQ m c j) (deqS m c (ix2 (j 0) (0 : Fin 1))) (deqO m c j) (IntOp.cmpi .ne (deqM m c j) 0#32))
    (hf1 : (dat1 (F := Ideal) (U3 m) c).arrAt 3 cfg1.N
      = fun j => (∑ i : Fin 4096, xflat m c (ix2 (j 0) i) * wts m c (ix2 (j 1) i)) + brow m c (ix2 (0 : Fin 1) (j 1))) :
    (W5 m c (Proc.devRef .tc main_v5) : S4x2048x4096.Idx → EReal)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the weights the second region reads are the first region's output
  have hw : wts m c
      = wfull (m ((c : Thread nD τ).loc main_arg1)) (m ((c : Thread nD τ).loc main_arg2)) (m ((c : Thread nD τ).loc main_arg3)) (m ((c : Thread nD τ).loc main_arg4)) := by
    have h1 : W3 m c (Proc.devRef .tc main_v1) = W2 m c (Proc.devRef .tc main_v1) :=
      StableHlo.after_of_writes_sub hostOps1 _ hostOps1_writes (r := main_v1) (by decide)
    refine (h1.trans ((W2_arr m c 4).trans hf0)).trans ?_
    funext j
    unfold wfull
    have e0 : deqM m c j = ((m ((c : Thread nD τ).loc main_arg4) : S4096x4096.Idx → BitVec 1) j).setWidth 32 := U1_v0 m c j
    have e1 : deqQ m c = m ((c : Thread nD τ).loc main_arg1) := W1_of m c main_arg1 (by decide)
    have e2 : deqS m c = m ((c : Thread nD τ).loc main_arg2) := W1_of m c main_arg2 (by decide)
    have e3 : deqO m c = m ((c : Thread nD τ).loc main_arg3) := W1_of m c main_arg3 (by decide)
    rw [e0, ne_zero_extui, e1, e2, e3]
  funext j
  obtain ⟨b, r, n, rfl⟩ : ∃ (b : Fin 4) (r : Fin 2048) (n : Fin 4096), j = ix3 b r n := ⟨j 0, j 1, j 2, eq_ix3 j⟩
  rw [W5_v5 m c, unflatten_apply, (W4_arr m c 3).trans hf1]
  show (∑ i : Fin 4096, xflat m c (ix2 (⟨b.val * 2048 + r.val, flat_row_lt b r⟩ : Fin 8192) i) * wts m c (ix2 n i))
      + brow m c (ix2 (0 : Fin 1) n) = _
  have ex : xflat m c = shapeCast S8192x4096 (m ((c : Thread nD τ).loc main_arg0) : S4x2048x4096.Idx → EReal) shapeCasts_S4x2048x4096_S8192x4096 := by
    rw [← W2_arg0 m c]; exact U3_v2 m c
  have eb : brow m c = shapeCast S1x4096 (m ((c : Thread nD τ).loc main_arg5) : S4096.Idx → EReal) shapeCasts_S4096_S1x4096 := by
    rw [← W2_arg5 m c]; exact U3_v3 m c
  rw [hw, ex, eb, row_apply]
  unfold layer linear
  refine congrArg₂ (· + ·) (Finset.sum_congr rfl fun i _ => ?_) rfl
  rw [flatten_apply] <;> rfl

end Cert.KernelIdeal.Fr

end
-- ==== Proof.Payloads.lean ====
/-
  The four pure values the two kernel bodies store, each read at one index of its block, over the extended reals.

  The first body rebuilds a 256 x 4096 tile of the weight matrix: an entry is the full-precision outlier where the
  mask word is not zero and otherwise the stored integer, read signed, times the scale of its row (the scales come as
  a 256 x 1 column, so row p reads the column's entry (p, 0)). Narrowing the result to a shorter float format changes
  nothing over the extended reals.

  The second body works on a 1024 x 512 tile of the input rows and a 2048 x 512 tile of the weight rows. Its matrix
  product contracts the second axis of both, so entry (p, n) is the inner product, over the 512 features c, of input
  row p with weight row n. The three stored values are that inner product alone, the running value plus that inner
  product, and the running value plus the bias of output channel n (the bias comes as a 1 x 2048 row).
-/
import proofs.«103409_j90598040142545_2_alg».proof.Proof.Gen.KernelIdeal.Skeleton
import proofs.«103409_j90598040142545_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-- A column of `a` entries laid along each of `b` columns: the broadcast of an [a, 1] array to [a, b] reads, at
    (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The rebuilt weight tile at (p, i): the outlier where the mask word is not zero, else the signed integer times the
    scale of row p. -/
theorem pay_deq (v0 : Vec Ideal S256x4096 .i32) (v2 : Vec Ideal S256x1 .f32) (v5 : Vec Ideal S256x4096 .i32)
    (v7 : Vec Ideal S256x4096 .f32) (p : Fin 256) (i : Fin 4096) :
    k0_pay1 (F := Ideal) v0 v2 v5 v7 (ix2 p i)
      = Cert.QLin.wcell (v0 (ix2 p i)) (v2 (ix2 p (0 : Fin 1))) (v7 (ix2 p i)) (IntOp.cmpi .ne (v5 (ix2 p i)) 0#32) := by
  unfold k0_pay1 Cert.QLin.wcell
  show Scalar.select (IntOp.cmpi .ne (v5 (ix2 p i)) 0#32) (v7 (ix2 p i))
      ((FloatOps.sitofp (F := Ideal) .f32 (v0 (ix2 p i)) : Ideal .f32)
        * broadcastTo S256x4096 v2 broadcasts_S256x1_S256x4096 (ix2 p i)) = _
  rw [broadcastTo_a1_ab_apply]
  rfl

/-- The product's left operand index at output (p, n) and contraction position q: row p … -/
theorem dot_lhs_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide),
    dif_pos (show (0 : Fin S1024x512.rank) ∈ dot_S1024x512_S2048x512_S1024x2048_1_1_0_0_n_n.lhsNonContracting by decide)]
  rfl
/-- … and feature q. -/
theorem dot_lhs_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
/-- The right operand index: weight row n … -/
theorem dot_rhs_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide),
    dif_pos (show (0 : Fin S2048x512.rank) ∈ dot_S1024x512_S2048x512_S1024x2048_1_1_0_0_n_n.rhsNonContracting by decide)]
  rfl
/-- … and feature q. -/
theorem dot_rhs_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- The matrix product into a zero accumulator at (p, n): the inner product of input row p and weight row n over the
    tile's 512 features. -/
theorem pay_dot (x0 : Vec Ideal S1024x512 .f32) (x1 : Vec Ideal S2048x512 .bf16) (p : Fin 1024) (n : Fin 2048) :
    k1_pay1 (F := Ideal) x0 x1 (ix2 p n) = ∑ c : Fin 512, x0 (ix2 p c) * x1 (ix2 n c) := by
  unfold k1_pay1
  show FloatOps.matmul dot_S1024x512_S2048x512_S1024x2048_1_1_0_0_n_n none
      (truncf .bf16 (shapeCast S1024x512 x0 shapeCasts_S1024x512_S1024x512) bitsLt_bf16_f32 : FVec Ideal S1024x512 .bf16)
      (shapeCast S2048x512 x1 shapeCasts_S2048x512_S2048x512)
      (constant S1024x2048 .f32 0x00000000#32) (ix2 p n) = _
  rw [shapeCast_self, shapeCast_self, Ideal.matmul_constant_zero_apply,
    ← Equiv.sum_comp (contrEquiv1 dot_S1024x512_S2048x512_S1024x2048_1_1_0_0_n_n 512 rfl rfl).symm]
  refine Finset.sum_congr rfl fun c _ => ?_
  have hc := contrEquiv1_symm_val dot_S1024x512_S2048x512_S1024x2048_1_1_0_0_n_n 512 rfl rfl c
  have el : dot_S1024x512_S2048x512_S1024x2048_1_1_0_0_n_n.lhsIdx (ix2 p n) ((contrEquiv1 dot_S1024x512_S2048x512_S1024x2048_1_1_0_0_n_n 512 rfl rfl).symm c) = ix2 p c :=
    funext fun a => Fin.ext (by
      match a with
      | ⟨0, _⟩ => exact dot_lhs_0 _ _
      | ⟨1, _⟩ => exact (dot_lhs_1 _ _).trans hc)
  have er : dot_S1024x512_S2048x512_S1024x2048_1_1_0_0_n_n.rhsIdx (ix2 p n) ((contrEquiv1 dot_S1024x512_S2048x512_S1024x2048_1_1_0_0_n_n 512 rfl rfl).symm c) = ix2 n c :=
    funext fun a => Fin.ext (by
      match a with
      | ⟨0, _⟩ => exact dot_rhs_0 _ _
      | ⟨1, _⟩ => exact (dot_rhs_1 _ _).trans hc)
  rw [el, er]
  rfl

/-- The accumulating store at (p, n): the running value plus the tile's inner product. -/
theorem pay_acc (x0 : Vec Ideal S1024x512 .f32) (x1 : Vec Ideal S2048x512 .bf16) (xo : Vec Ideal S1024x2048 .f32)
    (p : Fin 1024) (n : Fin 2048) :
    k1_pay2 (F := Ideal) x0 x1 xo (ix2 p n) = xo (ix2 p n) + ∑ c : Fin 512, x0 (ix2 p c) * x1 (ix2 n c) := by
  unfold k1_pay2
  show shapeCast S1024x2048 xo shapeCasts_S1024x2048_S1024x2048 (ix2 p n) + k1_pay1 (F := Ideal) x0 x1 (ix2 p n) = _
  rw [shapeCast_self, pay_dot]

/-- The closing store at (p, n): the running value plus the bias of output channel n. -/
theorem pay_bias (xo : Vec Ideal S1024x2048 .f32) (xb : Vec Ideal S1x2048 .f32) (p : Fin 1024) (n : Fin 2048) :
    k1_pay3 (F := Ideal) xo xb (ix2 p n) = xo (ix2 p n) + xb (ix2 (0 : Fin 1) n) := by
  unfold k1_pay3
  show shapeCast S1024x2048 xo shapeCasts_S1024x2048_S1024x2048 (ix2 p n)
      + broadcastTo S1024x2048 (shapeCast S1x2048 (shapeCast S1x2048 xb shapeCasts_S1x2048_S1x2048) shapeCasts_S1x2048_S1x2048)
          broadcasts_S1x2048_S1024x2048 (ix2 p n) = _
  rw [shapeCast_self, shapeCast_self, shapeCast_self, broadcastTo_1b_ab_apply]

end Cert.KernelIdeal.Pay

end
-- ==== Proof.KI.Val0.lean ====
/-
  What region 0 leaves in its output array, over the extended reals: the rebuilt weight matrix, as one function of the
  four arrays the region reads (quantized weights, per-row scales, outliers, mask words), index by index. Point t of
  the 16-point grid writes back rows 256 t .. 256 t + 255 of the matrix; every input window's block at t sits at the
  same rows (the scales' block is the 256 x 1 column of those rows), so the value stored at row p, column i of the
  block is the weight cell of row 256 t + p, column i; and the 16 blocks cover all 4096 rows, the block of row r
  being that of point r / 256.
-/
import proofs.«103409_j90598040142545_2_alg».proof.Proof.KI.Reg0
import proofs.«103409_j90598040142545_2_alg».proof.Proof.Spec
import proofs.«103409_j90598040142545_2_alg».proof.Proof.Payloads
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when the region is entered, over the extended reals
variable (V : (c : Dev nD) → (b : Ref sig .tc) → Buf (Elt Ideal) ((c : Thread nD τ).loc b))

/-- The zero offsets, however spelt. -/
theorem hz0 : (![0, 0] : Fin 2 → Nat) = fun _ => 0 := funext fun a => by fin_cases a <;> rfl

/-- The rebuilt weight matrix, from the four arrays as the region finds them: entry (n, i) is the weight cell of the
    quantized weight, row n's scale, the outlier and the mask bit there. -/
def Wdeq (c : Dev nD) : S4096x4096.Idx → EReal := fun j =>
  Cert.QLin.wcell (V c main_arg1 j) (V c main_arg2 (ix2 (j 0) (0 : Fin 1))) (V c main_arg3 j) (IntOp.cmpi .ne (V c main_v0 j) 0#32)

/-- The stored tile at any index of the block: the weight cell of the four blocks there, the scale read in the
    index's row of the 256 x 1 column. -/
theorem tile_cell (x0 : Vec Ideal S256x4096 .i32) (x1 : Vec Ideal S256x1 .f32) (x2 : Vec Ideal S256x4096 .f32)
    (x3 : Vec Ideal S256x4096 .i32) (y : S256x4096.Idx) :
    k0_pay1 (F := Ideal) x0 x1 x3 x2 y
      = Cert.QLin.wcell (x0 y) (x1 (ix2 (y 0) (0 : Fin 1))) (x2 y) (IntOp.cmpi .ne (x3 y) 0#32) := by
  rw [eq_ix2 y]
  exact Pay.pay_deq x0 x1 x3 x2 (y 0) (y 1)

/-- The printed index maps over the grid: at point t every window's block index is t along the rows and 0 along the
    columns. -/
theorem idx_rows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back is block t of the rebuilt weight matrix. -/
theorem flushed0_eq (c : Dev nD) (t : Fin cfg0.N) :
    (dat0 V c).flushed 4 t = ((cfg0.win 4).blk t).view.read (Elt Ideal) (Wdeq V c) := by
  show (cfg0.win 4).cut (grid0.coords t) ((dat0 V c).after 4 t) = _
  rw [after0_4]
  unfold out0_4
  rw [View.canon_unit_zero hz0]
  simp only [View.ld_unit_zero (S := S256x4096) hz0, View.ld_unit_zero (S := S256x1) hz0]
  obtain ⟨e00, e01, e10, e11, e20, e21, e30, e31, e40, e41⟩ := idx_rows0 t
  funext j
  show k0_pay1 (F := Ideal) (iblk0 V c 0 t) (iblk0 V c 1 t) (iblk0 V c 3 t) (iblk0 V c 2 t) j = Wdeq V c (((cfg0.win 4).blk t).view.emb j)
  refine (tile_cell _ _ _ _ j).trans ?_
  show Cert.QLin.wcell (V c main_arg1 (((cfg0.win 0).blk t).view.emb j))
      (V c main_arg2 (((cfg0.win 1).blk t).view.emb (ix2 (j 0) (0 : Fin 1))))
      (V c main_arg3 (((cfg0.win 2).blk t).view.emb j))
      (IntOp.cmpi .ne (V c main_v0 (((cfg0.win 3).blk t).view.emb j)) 0#32)
    = Cert.QLin.wcell (V c main_arg1 (((cfg0.win 4).blk t).view.emb j))
      (V c main_arg2 (ix2 ((((cfg0.win 4).blk t).view.emb j) 0) (0 : Fin 1)))
      (V c main_arg3 (((cfg0.win 4).blk t).view.emb j))
      (IntOp.cmpi .ne (V c main_v0 (((cfg0.win 4).blk t).view.emb j)) 0#32)
  have hj0 : (j 0).val < 256 := (j 0).isLt
  have hj1 : (j 1).val < 4096 := (j 1).isLt
  have h0 : ((cfg0.win 0).blk t).view.emb j = ((cfg0.win 4).blk t).view.emb j := by
    funext a; apply Fin.ext
    match a with
    | ⟨0, _⟩ => show win0_0.index t (0 : Fin 2) * 256 + 1 * (j 0).val = win0_4.index t (0 : Fin 2) * 256 + 1 * (j 0).val; omega
    | ⟨1, _⟩ => show win0_0.index t (1 : Fin 2) * 4096 + 1 * (j 1).val = win0_4.index t (1 : Fin 2) * 4096 + 1 * (j 1).val; omega
  have h2 : ((cfg0.win 2).blk t).view.emb j = ((cfg0.win 4).blk t).view.emb j := by
    funext a; apply Fin.ext
    match a with
    | ⟨0, _⟩ => show win0_2.index t (0 : Fin 2) * 256 + 1 * (j 0).val = win0_4.index t (0 : Fin 2) * 256 + 1 * (j 0).val; omega
    | ⟨1, _⟩ => show win0_2.index t (1 : Fin 2) * 4096 + 1 * (j 1).val = win0_4.index t (1 : Fin 2) * 4096 + 1 * (j 1).val; omega
  have h3 : ((cfg0.win 3).blk t).view.emb j = ((cfg0.win 4).blk t).view.emb j := by
    funext a; apply Fin.ext
    match a with
    | ⟨0, _⟩ => show win0_3.index t (0 : Fin 2) * 256 + 1 * (j 0).val = win0_4.index t (0 : Fin 2) * 256 + 1 * (j 0).val; omega
    | ⟨1, _⟩ => show win0_3.index t (1 : Fin 2) * 4096 + 1 * (j 1).val = win0_4.index t (1 : Fin 2) * 4096 + 1 * (j 1).val; omega
  have h1 : ((cfg0.win 1).blk t).view.emb (ix2 (j 0) (0 : Fin 1)) = ix2 ((((cfg0.win 4).blk t).view.emb j) 0) (0 : Fin 1) := by
    funext a; apply Fin.ext
    match a with
    | ⟨0, _⟩ => show win0_1.index t (0 : Fin 2) * 256 + 1 * (j 0).val = win0_4.index t (0 : Fin 2) * 256 + 1 * (j 0).val; omega
    | ⟨1, _⟩ => show win0_1.index t (1 : Fin 2) * 1 + 1 * 0 = 0; omega
  rw [h0, h1, h2, h3]
  rfl

/-- An index of the array is in point t's block iff each coordinate is in the block's range on its axis. -/
theorem mem_blk0 (t : Fin cfg0.N) (i : S4096x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v1).slice (win0_4.rect t)).set ↔ _
  rw [View.set_slice_whole, Rect.mem_set_unit]
  exact Iff.rfl

/-- The 16 blocks cover the matrix: row r is in the block of point r / 256. -/
theorem cover0 (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : grid0.N = 16 := N_0
  have ht : (i 0).val / 256 < grid0.N := by rw [hN]; omega
  obtain ⟨-, -, -, -, -, -, -, -, e40, e41⟩ := idx_rows0 ⟨(i 0).val / 256, ht⟩
  have q0 : win0_4.index ⟨(i 0).val / 256, ht⟩ (0 : Fin 2) = (i 0).val / 256 := e40
  refine ⟨⟨(i 0).val / 256, ht⟩, flush0_4 _, ?_⟩
  rw [mem_blk0]
  intro a
  match a with
  | ⟨0, _⟩ => show win0_4.index ⟨(i 0).val / 256, ht⟩ (0 : Fin 2) * 256 ≤ (i 0).val ∧ (i 0).val < win0_4.index ⟨(i 0).val / 256, ht⟩ (0 : Fin 2) * 256 + 256; omega
  | ⟨1, _⟩ => show win0_4.index ⟨(i 0).val / 256, ht⟩ (1 : Fin 2) * 4096 ≤ (i 1).val ∧ (i 1).val < win0_4.index ⟨(i 0).val / 256, ht⟩ (1 : Fin 2) * 4096 + 4096; omega

/-- The output array after the region's write-backs is the rebuilt weight matrix of the arrays at entry. -/
theorem final0 (c : Dev nD) : (dat0 (F := Ideal) V c).arrAt 4 cfg0.N = fun j =>
    Cert.QLin.wcell (V c main_arg1 j) (V c main_arg2 (ix2 (j 0) (0 : Fin 1))) (V c main_arg3 j) (IntOp.cmpi .ne (V c main_v0 j) 0#32) :=
  (dat0 V c).arrAt_eq_of_cover 4 (Wdeq V c) (fun t _ => flushed0_eq V c t) (cover0)

end Cert.KernelIdeal.Fr

end
-- ==== Proof.LibFiniteSums.lean ====
/-
  General lemmas on finite sums, for value proofs on the extended reals. Nothing here mentions a program.

  * `sum_split`     a sum over `Fin N`, `N = m * n`, as the double sum over `a < m`, `b < n` at position `b + n * a`
                    (an array axis cut into `m` blocks of `n`);
  * `sum_comm4`     four nested sums over finite types: the inner two move outside;
  * `sum_mul_coe`   `(∑ f) * x = ∑ (f * x)` on the extended reals for a real `x ≥ 0`, whatever the terms are
                    (infinities of both signs included): a mean's division by a positive count distributes over a sum;
  * `sum_idx1`, `sum_idx3`   a sum over a rank-1 / rank-3 index set of literal extents as the sum over its coordinates
                    (the library's `ValueIdx.sum_idx2` at the two neighbouring ranks).
-/
import Mathlib.Data.EReal.Basic
import Mathlib.Data.EReal.Operations
import Mathlib.Algebra.BigOperators.Fin
import Mathlib.Algebra.BigOperators.Intervals
import Mathlib.Logic.Equiv.Fin.Basic
import Idealize.ShloMosaic.Lib.ValueIdx

noncomputable section

open scoped BigOperators
open Idealize.ShloMosaic Idealize.ShloMosaic.ValueIdx

namespace Cert.LibFiniteSums

/-! ## Re-indexing -/

/-- A sum over `Fin N` with `N = m * n` is the double sum over `a < m`, `b < n` at position `b + n * a`. -/
theorem sum_split {M : Type*} [AddCommMonoid M] (m n N : ℕ) (h : m * n = N) (g : Fin N → M) :
    ∑ x, g x = ∑ a : Fin m, ∑ b : Fin n,
      g ⟨b.val + n * a.val, h ▸ (finProdFinEquiv (a, b)).isLt⟩ := by
  subst h
  rw [← Equiv.sum_comp finProdFinEquiv g, Fintype.sum_prod_type]
  rfl

/-- Four nested sums: the inner two move outside. -/
theorem sum_comm4 {M : Type*} [AddCommMonoid M] {α β γ δ : Type*} [Fintype α] [Fintype β] [Fintype γ] [Fintype δ]
    (X : α → β → γ → δ → M) :
    ∑ a, ∑ b, ∑ c, ∑ d, X a b c d = ∑ c, ∑ d, ∑ a, ∑ b, X a b c d := by
  calc ∑ a, ∑ b, ∑ c, ∑ d, X a b c d
      = ∑ a, ∑ c, ∑ b, ∑ d, X a b c d := Finset.sum_congr rfl fun a _ => Finset.sum_comm
    _ = ∑ c, ∑ a, ∑ b, ∑ d, X a b c d := Finset.sum_comm
    _ = ∑ c, ∑ a, ∑ d, ∑ b, X a b c d :=
        Finset.sum_congr rfl fun c _ => Finset.sum_congr rfl fun a _ => Finset.sum_comm
    _ = ∑ c, ∑ d, ∑ a, ∑ b, X a b c d := Finset.sum_congr rfl fun c _ => Finset.sum_comm

/-! ## A non-negative real factor and a finite sum -/

/-- `(∑ f) * x = ∑ (f * x)` for a real `x ≥ 0`, whatever the terms are (infinities of both signs included). -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-! ## Sums over index sets of rank 1 and 3 -/

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibFiniteSums

end
-- ==== Proof.SumBlocks.lean ====
/-
  The inner product over all 4096 input features, taken in 8 consecutive chunks of 512.

  The running value starts as the first chunk's partial sum; each later chunk's partial sum is added to it. Feature
  number c of chunk k sits at position c + 512 * k. On the extended reals addition is commutative and associative
  with no side condition, so after the last chunk the running value is the sum over all 4096 features at once.
-/
import proofs.«103409_j90598040142545_2_alg».proof.Proof.Spec
import proofs.«103409_j90598040142545_2_alg».proof.Proof.LibFiniteSums

noncomputable section

open scoped BigOperators

namespace Cert.QLin

/-- Chunk `k`'s partial sum: the 512 terms at positions c + 512 * k. -/
def chunk (f : Fin 4096 → EReal) (k : ℕ) (hk : k < 8) : EReal :=
  ∑ c : Fin 512, f ⟨c.val + 512 * k, by have := c.isLt; omega⟩

/-- The first chunk's positions are 0 … 511 themselves. -/
theorem chunk_zero (f : Fin 4096 → EReal) (h : 0 < 8) :
    chunk f 0 h = ∑ c : Fin 512, f ⟨c.val, by have := c.isLt; omega⟩ :=
  Finset.sum_congr rfl fun _ _ => congrArg f (Fin.ext (by simp))

/-- The running value after chunks 0 … k. -/
def run8 (f : Fin 4096 → EReal) : (k : ℕ) → k < 8 → EReal
  | 0, h => chunk f 0 h
  | k + 1, h => run8 f k (by omega) + chunk f (k + 1) h

theorem run8_zero (f : Fin 4096 → EReal) (h : 0 < 8) : run8 f 0 h = chunk f 0 h := rfl

theorem run8_succ (f : Fin 4096 → EReal) (k : ℕ) (h : k + 1 < 8) :
    run8 f (k + 1) h = run8 f k (by omega) + chunk f (k + 1) h := rfl

/-- A chunk's partial sum as a total function of the chunk number (zero from 8 on), to sum over a range. -/
private def chunkT (f : Fin 4096 → EReal) (k : ℕ) : EReal := if h : k < 8 then chunk f k h else 0

private theorem run8_eq_range (f : Fin 4096 → EReal) :
    ∀ (k : ℕ) (hk : k < 8), run8 f k hk = ∑ a ∈ Finset.range (k + 1), chunkT f a := by
  intro k
  induction k with
  | zero =>
    intro hk
    rw [Finset.sum_range_one, run8_zero]
    exact (dif_pos hk).symm
  | succ k ih =>
    intro hk
    rw [run8_succ, ih (by omega), Finset.sum_range_succ _ (k + 1)]
    exact congrArg (_ + ·) (dif_pos hk).symm

/-- After the last chunk the running value is the sum over all 4096 features. -/
theorem run8_last (f : Fin 4096 → EReal) : run8 f 7 (by decide) = ∑ i : Fin 4096, f i := by
  rw [run8_eq_range, ← Fin.sum_univ_eq_sum_range (fun a => chunkT f a) 8,
    Cert.LibFiniteSums.sum_split 8 512 4096 rfl f]
  exact Finset.sum_congr rfl fun a _ => dif_pos a.isLt

end Cert.QLin

end
-- ==== Proof.KI.Val1.lean ====
/-
  The matrix-product region's value over the extended reals.

  The output array [8192, 4096] is cut into 8 x 2 tiles of 1024 x 2048. A tile's block stays in its buffer over the
  eight chunks k = 0 … 7 of the 4096 contracted features; grid point t has row tile t / 16, column tile t / 8 % 2 and
  chunk t % 8. For entry (p, q) of the tile, write f(i) = x(row, i) · w(col, i) with row = (t / 16) · 1024 + p and
  col = (t / 8 % 2) · 2048 + q. After the body at point t the buffer holds, at (p, q), the running value of f over
  chunks 0 … t % 8 — chunk k being the 512 terms at positions c + 512 · k — and at the last chunk that value plus
  bias(col). The running value after the last chunk is the sum of f over all 4096 features, addition on the extended
  reals being commutative and associative with no side condition. The block is written back after the last chunk
  only, and those sixteen write-backs tile the array; so the array ends holding, at (r, o), the inner product of
  input row r and weight row o plus bias(o).
-/
import proofs.«103409_j90598040142545_2_alg».proof.Proof.KI.Reg1
import proofs.«103409_j90598040142545_2_alg».proof.Proof.Payloads
import proofs.«103409_j90598040142545_2_alg».proof.Proof.SumBlocks
import Idealize.ShloMosaic.Lib.Pipeline.Value
import Idealize.ShloMosaic.Lib.Tactic

set_option maxRecDepth 16384

noncomputable section

open scoped BigOperators

namespace Cert.QLin

open Idealize.ShloMosaic Idealize.ShloMosaic.ValueIdx

/-- The region's result as one function of its three arrays: entry (r, o) is the inner product of input row r and
    weight row o over all 4096 features, plus bias(o). -/
def mmspec (x : (⟨2, ![8192, 4096]⟩ : Shape).Idx → EReal) (w : (⟨2, ![4096, 4096]⟩ : Shape).Idx → EReal)
    (b : (⟨2, ![1, 4096]⟩ : Shape).Idx → EReal) : (⟨2, ![8192, 4096]⟩ : Shape).Idx → EReal :=
  fun j => (∑ i : Fin 4096, x (ix2 (j 0) i) * w (ix2 (j 1) i)) + b (ix2 (0 : Fin 1) (j 1))

/-- The running value after chunk `k` as a total function of `k` (zero from 8 on). -/
def runT (f : Fin 4096 → EReal) (k : ℕ) : EReal := if h : k < 8 then run8 f k h else 0

theorem runT_zero (f : Fin 4096 → EReal) : runT f 0 = chunk f 0 (by decide) := by
  unfold runT; rw [dif_pos (by decide : 0 < 8)]; rfl

theorem runT_succ (f : Fin 4096 → EReal) (k : ℕ) (h : k + 1 < 8) : runT f (k + 1) = runT f k + chunk f (k + 1) h := by
  unfold runT; rw [dif_pos h, dif_pos (by omega : k < 8), run8_succ]

theorem runT_seven (f : Fin 4096 → EReal) : runT f 7 = ∑ i : Fin 4096, f i := by
  unfold runT; rw [dif_pos (by decide : 7 < 8)]; exact run8_last f

end Cert.QLin

namespace Cert.KernelIdeal.Fr

open Cert.KernelIdeal Cert.KernelIdeal.Gen Cert.KernelIdeal.Pay Cert.QLin
open Idealize.ShloMosaic Idealize.ShloMosaic.TcCoe Idealize.ShloMosaic.Tactic Idealize.ShloMosaic.ValueIdx
open Idealize.SL.Sem
open Idealize.ShloMosaic.Pipeline (Dat Cfg Window)

/-! ## What each case of the body leaves in the output block -/

section Pieces
variable {F : FTy → Type} [FloatOps F]

theorem hz : (![0, 0] : Fin 2 → Nat) = fun _ => 0 := funext fun a => by fin_cases a <;> rfl

/-- First chunk: the block ends holding the partial product. -/
theorem out_A (c : Dev nD) (i : grid1.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole)
    (hc1 : k1_cond1 i = 1#1) (hc2 : ¬k1_cond2 i = 1#1) (hc3 : ¬k1_cond3 i = 1#1)
    (x0 : Vec F S1024x512 .f32) (x1 : Vec F S2048x512 .bf16) (x2 : Vec F S1x2048 .f32) :
    out1_A_3 c i a3 h3 a4 h4 a5 h5 a6 h6 hc1 hc2 hc3 x0 x1 x2 = k1_pay1 x0 x1 := by
  unfold out1_A_3
  rw [View.read_writes_eq_canon _ _ _ (cover1_A_3 c i a3 h3 a4 h4 a5 h5 a6 h6 hc1 hc2 hc3 x0 x1 x2)]
  unfold kernelRun1_A
  dsimp only
  rw [View.canon_unit_zero hz]
  simp only [View.readAt_eq_ld, h3.read_unread, h4.read_unread, View.ld_unit_zero (S := S1024x512) hz,
    View.ld_unit_zero (S := S2048x512) hz]

/-- A middle chunk: what the block held plus the partial product. -/
theorem out_B (c : Dev nD) (i : grid1.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole)
    (hc1 : ¬k1_cond1 i = 1#1) (hc2 : k1_cond2 i = 1#1) (hc3 : ¬k1_cond3 i = 1#1)
    (x0 : Vec F S1024x512 .f32) (x1 : Vec F S2048x512 .bf16) (x2 : Vec F S1x2048 .f32) (xo : Vec F S1024x2048 .f32) :
    out1_B_3 c i a3 h3 a4 h4 a5 h5 a6 h6 hc1 hc2 hc3 x0 x1 x2 xo = k1_pay2 x0 x1 xo := by
  unfold out1_B_3
  rw [View.read_writes_eq_canon _ _ _ (cover1_B_3 c i a3 h3 a4 h4 a5 h5 a6 h6 hc1 hc2 hc3 x0 x1 x2 xo)]
  unfold kernelRun1_B
  dsimp only
  rw [View.canon_unit_zero hz]
  simp only [View.readAt_eq_ld, h3.read_unread, h4.read_unread, h6.read_unread, View.ld_unit_zero (S := S1024x512) hz,
    View.ld_unit_zero (S := S2048x512) hz, View.ld_unit_zero (S := S1024x2048) hz]

/-- The last chunk: what the block held plus the partial product, and then the bias row added to every row. -/
theorem out_C (c : Dev nD) (i : grid1.Coords) (a3 : Memref sig .tc .vmem S1024x512 .f32) (h3 : a3.IsWhole)
    (a4 : Memref sig .tc .vmem S2048x512 .bf16) (h4 : a4.IsWhole) (a5 : Memref sig .tc .vmem S1x2048 .f32) (h5 : a5.IsWhole)
    (a6 : Memref sig .tc .vmem S1024x2048 .f32) (h6 : a6.IsWhole)
    (hc1 : ¬k1_cond1 i = 1#1) (hc2 : k1_cond2 i = 1#1) (hc3 : k1_cond3 i = 1#1)
    (x0 : Vec F S1024x512 .f32) (x1 : Vec F S2048x512 .bf16) (x2 : Vec F S1x2048 .f32) (xo : Vec F S1024x2048 .f32) :
    out1_C_3 c i a3 h3 a4 h4 a5 h5 a6 h6 hc1 hc2 hc3 x0 x1 x2 xo = k1_pay3 (k1_pay2 x0 x1 xo) x2 := by
  unfold out1_C_3
  rw [View.read_writes_eq_canon _ _ _ (cover1_C_3 c i a3 h3 a4 h4 a5 h5 a6 h6 hc1 hc2 hc3 x0 x1 x2 xo)]
  unfold kernelRun1_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread,
    View.ld_unit_zero (S := S1024x512) hz, View.ld_unit_zero (S := S2048x512) hz, View.ld_unit_zero (S := S1024x2048) hz,
    View.ld_unit_zero (S := S1x2048) hz]

end Pieces

/-! ## The blocks read at an index, at the extended reals -/

variable (V : (c : Dev nD) → (b : Ref sig .tc) → Buf (Elt Ideal) ((c : Thread nD τ).loc b))

/-- The input rows, the weight rows and the bias row as the region finds them. -/
abbrev X1 (c : Dev nD) : S8192x4096.Idx → EReal := V c main_v2
abbrev Wt1 (c : Dev nD) : S4096x4096.Idx → EReal := V c main_v1
abbrev B1 (c : Dev nD) : S1x4096.Idx → EReal := V c main_v3

/-- The three input blocks at point t, as arrays of extended reals. -/
def blkX (c : Dev nD) (t : Fin cfg1.N) : S1024x512.Idx → EReal := iblk1 V c 0 t
def blkW (c : Dev nD) (t : Fin cfg1.N) : S2048x512.Idx → EReal := iblk1 V c 1 t
def blkB (c : Dev nD) (t : Fin cfg1.N) : S1x2048.Idx → EReal := iblk1 V c 2 t

/-- The printed index maps over the grid: row tile t / 16, column tile t / 8 % 2, chunk t % 8. -/
theorem idx1 : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

/-- The array row under row p of point n's tile, and the array column under its column q. -/
def rowOf (n : ℕ) (p : Fin 1024) : Fin 8192 := ⟨n / 16 % 8 * 1024 + p.val, by have := p.isLt; omega⟩
def colOf (n : ℕ) (q : Fin 2048) : Fin 4096 := ⟨n / 8 % 2 * 2048 + q.val, by have := q.isLt; omega⟩

/-- The input block at point t, entry (p, q), is the input array at (row, chunk position). -/
theorem blk0_apply (c : Dev nD) (t : Fin cfg1.N) (p : Fin 1024) (q : Fin 512) (r : Fin 8192) (s : Fin 4096)
    (hr : r.val = t.val / 16 * 1024 + p.val) (hs : s.val = t.val % 8 * 512 + q.val) :
    blkX V c t (ix2 p q) = X1 V c (ix2 r s) := by
  obtain ⟨e0, e1, -⟩ := idx1 t
  unfold blkX iblk1
  rw [View.read_apply]
  show V c main_v2 (((cfg1.win 0).blk t).view.emb (ix2 p q)) = V c main_v2 (ix2 r s)
  have he : ((cfg1.win 0).blk t).view.emb (ix2 p q) = (ix2 r s : S8192x4096.Idx) := by
    funext a; apply Fin.ext
    match a with
    | ⟨0, _⟩ => show win1_0.index t (0 : Fin 2) * 1024 + 1 * p.val = r.val; omega
    | ⟨1, _⟩ => show win1_0.index t (1 : Fin 2) * 512 + 1 * q.val = s.val; omega
  rw [he]

/-- The weight block at point t, entry (p, q), is the weight array at (column's weight row, chunk position). -/
theorem blk1_apply (c : Dev nD) (t : Fin cfg1.N) (p : Fin 2048) (q : Fin 512) (r : Fin 4096) (s : Fin 4096)
    (hr : r.val = t.val / 8 % 2 * 2048 + p.val) (hs : s.val = t.val % 8 * 512 + q.val) :
    blkW V c t (ix2 p q) = Wt1 V c (ix2 r s) := by
  obtain ⟨-, -, e2, e3, -⟩ := idx1 t
  unfold blkW iblk1
  rw [View.read_apply]
  show V c main_v1 (((cfg1.win 1).blk t).view.emb (ix2 p q)) = V c main_v1 (ix2 r s)
  have he : ((cfg1.win 1).blk t).view.emb (ix2 p q) = (ix2 r s : S4096x4096.Idx) := by
    funext a; apply Fin.ext
    match a with
    | ⟨0, _⟩ => show win1_1.index t (0 : Fin 2) * 2048 + 1 * p.val = r.val; omega
    | ⟨1, _⟩ => show win1_1.index t (1 : Fin 2) * 512 + 1 * q.val = s.val; omega
  rw [he]

/-- The bias block at point t, entry (0, q), is the bias row at the column. -/
theorem blk2_apply (c : Dev nD) (t : Fin cfg1.N) (q : Fin 2048) (s : Fin 4096)
    (hs : s.val = t.val / 8 % 2 * 2048 + q.val) :
    blkB V c t (ix2 (0 : Fin 1) q) = B1 V c (ix2 (0 : Fin 1) s) := by
  obtain ⟨-, -, -, -, e4, e5, -⟩ := idx1 t
  unfold blkB iblk1
  rw [View.read_apply]
  show V c main_v3 (((cfg1.win 2).blk t).view.emb (ix2 (0 : Fin 1) q)) = V c main_v3 (ix2 (0 : Fin 1) s)
  have he : ((cfg1.win 2).blk t).view.emb (ix2 (0 : Fin 1) q) = (ix2 (0 : Fin 1) s : S1x4096.Idx) := by
    funext a; apply Fin.ext
    match a with
    | ⟨0, _⟩ => show win1_2.index t (0 : Fin 2) * 1 + 1 * 0 = 0; omega
    | ⟨1, _⟩ => show win1_2.index t (1 : Fin 2) * 2048 + 1 * q.val = s.val; omega
  rw [he]

/-! ## The accumulation -/

/-- The products summed for output entry (r, o). -/
def prodf (c : Dev nD) (r : Fin 8192) (o : Fin 4096) : Fin 4096 → EReal := fun i => X1 V c (ix2 r i) * Wt1 V c (ix2 o i)

/-- The tile's inner product over its 512 features at point t is chunk t % 8 of the products. -/
theorem tile_dot (c : Dev nD) (t : Fin cfg1.N) (p : Fin 1024) (q : Fin 2048) (hk : t.val % 8 < 8) :
    ∑ c' : Fin 512, blkX V c t (ix2 p c') * blkW V c t (ix2 q c')
      = chunk (prodf V c (rowOf t.val p) (colOf t.val q)) (t.val % 8) hk := by
  have hN : t.val < 128 := lt_of_lt_of_eq t.isLt (show cfg1.N = 128 from N_1)
  unfold chunk prodf
  refine Finset.sum_congr rfl fun c' _ => ?_
  have hc' := c'.isLt
  rw [blk0_apply V c t p c' (rowOf t.val p) ⟨c'.val + 512 * (t.val % 8), by omega⟩ (by show t.val / 16 % 8 * 1024 + p.val = _; omega) (by show c'.val + 512 * (t.val % 8) = _; omega),
    blk1_apply V c t q c' (colOf t.val q) ⟨c'.val + 512 * (t.val % 8), by omega⟩ (by show t.val / 8 % 2 * 2048 + q.val = _; omega) (by show c'.val + 512 * (t.val % 8) = _; omega)]

/-- What the output block holds after the body at point n: the running value over the chunks so far, plus the bias
    after the last chunk. -/
theorem outsAt1_eq (c : Dev nD) : ∀ (n : ℕ) (hn : n < cfg1.N) (p : Fin 1024) (q : Fin 2048),
    outsAt1 V c n hn (ix2 p q)
      = runT (prodf V c (rowOf n p) (colOf n q)) (n % 8) + (if n % 8 = 7 then B1 V c (ix2 (0 : Fin 1) (colOf n q)) else 0)
  | 0, hn, p, q => by
    rw [outsAt1_A V c ⟨0, hn⟩ rfl, out_A]
    refine (pay_dot _ _ p q).trans ?_
    rw [if_neg (by decide), add_zero]
    exact (tile_dot V c ⟨0, hn⟩ p q (Nat.mod_lt _ (by decide))).trans (runT_zero _).symm
  | n + 1, hn, p, q => by
    have hN : n + 1 < 128 := lt_of_lt_of_eq hn (show cfg1.N = 128 from N_1)
    by_cases h0 : (n + 1) % 8 = 0
    · rw [outsAt1_A V c ⟨n + 1, hn⟩ h0, out_A]
      refine (pay_dot _ _ p q).trans ?_
      rw [if_neg (by omega), add_zero]
      refine (tile_dot V c ⟨n + 1, hn⟩ p q (Nat.mod_lt _ (by decide))).trans ?_
      show chunk _ ((n + 1) % 8) _ = runT _ ((n + 1) % 8)
      have e : ∀ (k : ℕ) (hk : k < 8), k = 0 → chunk (prodf V c (rowOf (n + 1) p) (colOf (n + 1) q)) k hk
          = runT (prodf V c (rowOf (n + 1) p) (colOf (n + 1) q)) k := by
        intro k hk hk0; subst hk0; exact (runT_zero _).symm
      exact e _ _ h0
    · have ih := outsAt1_eq c n (Nat.lt_of_succ_lt hn) p q
      have hr : rowOf n p = rowOf (n + 1) p := Fin.ext (by show n / 16 % 8 * 1024 + p.val = (n + 1) / 16 % 8 * 1024 + p.val; omega)
      have hcq : colOf n q = colOf (n + 1) q := Fin.ext (by show n / 8 % 2 * 2048 + q.val = (n + 1) / 8 % 2 * 2048 + q.val; omega)
      rw [hr, hcq, if_neg (by omega), add_zero] at ih
      have hstep : ∀ (k : ℕ) (hk : k < 8), k = n % 8 + 1 →
          runT (prodf V c (rowOf (n + 1) p) (colOf (n + 1) q)) (n % 8)
            + chunk (prodf V c (rowOf (n + 1) p) (colOf (n + 1) q)) k hk
          = runT (prodf V c (rowOf (n + 1) p) (colOf (n + 1) q)) k := by
        intro k hk hk1; subst hk1; exact (runT_succ _ _ hk).symm
      by_cases h7 : (n + 1) % 8 = 7
      · rw [outsAt1_C V c ⟨n + 1, hn⟩ h0 h7, out_C]
        refine (pay_bias _ _ p q).trans ?_
        rw [if_pos h7]
        refine (congrArg (_ + ·) (blk2_apply V c ⟨n + 1, hn⟩ q (colOf (n + 1) q) rfl)).trans ?_
        refine congrArg (· + B1 V c (ix2 (0 : Fin 1) (colOf (n + 1) q))) ?_
        refine (pay_acc _ _ _ p q).trans ?_
        refine (congrArg (_ + ·) (tile_dot V c ⟨n + 1, hn⟩ p q (Nat.mod_lt _ (by decide)))).trans ?_
        show outsAt1 V c n _ (ix2 p q) + _ = _
        rw [ih]
        exact hstep _ _ (by show (n + 1) % 8 = n % 8 + 1; omega)
      · rw [outsAt1_B V c ⟨n + 1, hn⟩ h0 h7, out_B, if_neg h7, add_zero]
        refine (pay_acc _ _ _ p q).trans ?_
        refine (congrArg (_ + ·) (tile_dot V c ⟨n + 1, hn⟩ p q (Nat.mod_lt _ (by decide)))).trans ?_
        show outsAt1 V c n _ (ix2 p q) + _ = _
        rw [ih]
        exact hstep _ _ (by show (n + 1) % 8 = n % 8 + 1; omega)

/-! ## From the write-backs to the array -/

/-- What a point with t % 8 = 7 writes back is its block of the region's function of the three arrays. -/
theorem flushed1_eq (c : Dev nD) (t : Fin cfg1.N) (hf : (cfg1.win 3).flush t = true) :
    (dat1 V c).flushed 3 t = ((cfg1.win 3).blk t).view.read (Elt Ideal) (mmspec (X1 V c) (Wt1 V c) (B1 V c)) := by
  have h7 : t.val % 8 = 7 := (flush1_3 t).mp hf
  have hN : t.val < 128 := lt_of_lt_of_eq t.isLt (show cfg1.N = 128 from N_1)
  obtain ⟨-, -, -, -, -, -, e6, e7⟩ := idx1 t
  show (cfg1.win 3).cut (grid1.coords t) ((dat1 V c).after 3 t) = _
  rw [after1_3]
  refine funext fun (j : S1024x2048.Idx) => ?_
  obtain ⟨p, q, rfl⟩ : ∃ (p : Fin 1024) (q : Fin 2048), j = ix2 p q := ⟨j 0, j 1, eq_ix2 j⟩
  rw [View.read_apply]
  have he : ((cfg1.win 3).blk t).view.emb (ix2 p q) = (ix2 (rowOf t.val p) (colOf t.val q) : S8192x4096.Idx) := by
    funext a; apply Fin.ext
    match a with
    | ⟨0, _⟩ => show win1_3.index t (0 : Fin 2) * 1024 + 1 * p.val = t.val / 16 % 8 * 1024 + p.val; omega
    | ⟨1, _⟩ => show win1_3.index t (1 : Fin 2) * 2048 + 1 * q.val = t.val / 8 % 2 * 2048 + q.val; omega
  rw [he]
  show outsAt1 V c t.val t.isLt (ix2 p q) = _
  rw [outsAt1_eq V c t.val t.isLt p q, if_pos h7]
  have e : ∀ k : ℕ, k = 7 → runT (prodf V c (rowOf t.val p) (colOf t.val q)) k
      = ∑ i : Fin 4096, prodf V c (rowOf t.val p) (colOf t.val q) i := by
    intro k hk; subst hk; exact runT_seven _
  rw [e _ h7]
  rfl

/-- The region's output array after the run: the inner products plus the bias, entry by entry. -/
theorem final1 (c : Dev nD) :
    (dat1 (F := Ideal) V c).arrAt 3 cfg1.N = mmspec (V c main_v2) (V c main_v1) (V c main_v3) :=
  (dat1 V c).arrAt_eq_of_cover 3 (mmspec (X1 V c) (Wt1 V c) (B1 V c)) (fun t ht => flushed1_eq V c t ht) fun (i : S8192x4096.Idx) => by
    have hi0 : (i 0).val < 8192 := (i 0).isLt
    have hi1 : (i 1).val < 4096 := (i 1).isLt
    have hlt : ((i 0).val / 1024 * 2 + (i 1).val / 2048) * 8 + 7 < cfg1.N := by
      rw [show cfg1.N = 128 from N_1]; omega
    refine ⟨⟨((i 0).val / 1024 * 2 + (i 1).val / 2048) * 8 + 7, hlt⟩, (flush1_3 _).mpr (by show (((i 0).val / 1024 * 2 + (i 1).val / 2048) * 8 + 7) % 8 = 7; omega), ?_⟩
    obtain ⟨-, -, -, -, -, -, e6, e7⟩ := idx1 ⟨((i 0).val / 1024 * 2 + (i 1).val / 2048) * 8 + 7, hlt⟩
    show i ∈ ((View.whole main_v4).slice (win1_3.rect ⟨((i 0).val / 1024 * 2 + (i 1).val / 2048) * 8 + 7, hlt⟩)).set
    rw [View.set_slice_whole, Rect.mem_set_unit]
    intro a
    match a with
    | ⟨0, _⟩ =>
      show win1_3.index ⟨((i 0).val / 1024 * 2 + (i 1).val / 2048) * 8 + 7, hlt⟩ (0 : Fin 2) * 1024 ≤ (i 0).val
        ∧ (i 0).val < win1_3.index ⟨((i 0).val / 1024 * 2 + (i 1).val / 2048) * 8 + 7, hlt⟩ (0 : Fin 2) * 1024 + 1024
      rw [e6]; dsimp only; omega
    | ⟨1, _⟩ =>
      show win1_3.index ⟨((i 0).val / 1024 * 2 + (i 1).val / 2048) * 8 + 7, hlt⟩ (1 : Fin 2) * 2048 ≤ (i 1).val
        ∧ (i 1).val < win1_3.index ⟨((i 0).val / 1024 * 2 + (i 1).val / 2048) * 8 + 7, hlt⟩ (1 : Fin 2) * 2048 + 2048
      rw [e7]; dsimp only; omega

end Cert.KernelIdeal.Fr

end
-- ==== Proof.RefIsSpec.lean ====
/-
  The reference's result is the specification.

  The reference converts the stored integers to reals, lays each output channel's scale along its row, multiplies,
  takes the full-precision outlier wherever the mask bit is set, contracts the input's feature axis with the weights'
  second axis, and adds the bias laid along every (batch, sequence) position. Read at one output entry (b, r, n) this
  is the sum over the 4096 features i of x(b, r, i) times the rebuilt weight W(n, i), plus bias(n): the layer of the
  specification, entry by entry. No algebraic law is needed, only the index arithmetic of the broadcasts and of the
  contraction.
-/
import proofs.«103409_j90598040142545_2_alg».proof.Proof.Gen.ReferenceIdeal.Read
import proofs.«103409_j90598040142545_2_alg».proof.Proof.Spec

noncomputable section

open scoped BigOperators

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- The reference's selected weight at (n, k) is the specification's rebuilt weight there: the scale read is that of
    row n. -/
theorem ref_weight (a1 : (⟨S4096x4096, .i32⟩ : BufTy).Contents (Elt Ideal)) (a2 : (⟨S4096x1, .f32⟩ : BufTy).Contents (Elt Ideal)) (a3 : (⟨S4096x4096, .f32⟩ : BufTy).Contents (Elt Ideal)) (a4 : (⟨S4096x4096, .i1⟩ : BufTy).Contents (Elt Ideal)) (n k : Fin 4096) :
    val_main_v3 (F := Ideal) a1 a2 a3 a4 (ix2 n k) = Cert.QLin.wfull a1 a2 a3 a4 (ix2 n k) := by
  have e : idx_main_v1 (ix2 n k) = ix2 n (0 : Fin 1) :=
    funext fun a => Fin.ext (by match a with | ⟨0, _⟩ => rfl | ⟨1, _⟩ => rfl)
  rw [val_main_v3_apply, val_main_v2_apply, val_main_v0_apply, val_main_v1_apply, e]
  rfl

/-- The reference's last stage is the layer: at (b, r, n) the contraction pairs input entry (b, r, k) with weight entry
    (n, k), and the twice-broadcast bias reads bias(n). -/
theorem ref_stage_is_layer (a0 : (⟨S4x2048x4096, .f32⟩ : BufTy).Contents (Elt Ideal)) (a1 : (⟨S4096x4096, .i32⟩ : BufTy).Contents (Elt Ideal)) (a2 : (⟨S4096x1, .f32⟩ : BufTy).Contents (Elt Ideal)) (a3 : (⟨S4096x4096, .f32⟩ : BufTy).Contents (Elt Ideal)) (a4 : (⟨S4096x4096, .i1⟩ : BufTy).Contents (Elt Ideal)) (a5 : (⟨S4096, .f32⟩ : BufTy).Contents (Elt Ideal)) :
    val_main_v7 (F := Ideal) a0 a1 a2 a3 a4 a5 = Cert.QLin.layer a0 a1 a2 a3 a4 a5 := by
  funext j
  obtain ⟨b, r, n, rfl⟩ : ∃ (b : Fin 4) (r : Fin 2048) (n : Fin 4096), j = ix3 b r n := ⟨j 0, j 1, j 2, eq_ix3 j⟩
  have e5 : idx_main_v5 (idx_main_v6 (ix3 b r n)) = ix1 n :=
    funext fun a => Fin.ext (by match a with | ⟨0, _⟩ => rfl)
  rw [val_main_v7_apply, val_main_v4_apply, val_main_v6_apply, val_main_v5_apply, e5]
  show (∑ k : Fin 4096, a0 (lidx_main_v4 (ix3 b r n) k) * val_main_v3 (F := Ideal) a1 a2 a3 a4 (ridx_main_v4 (ix3 b r n) k))
      + a5 (ix1 n)
    = (∑ i : Fin 4096, a0 (ix3 b r i) * Cert.QLin.wfull a1 a2 a3 a4 (ix2 n i)) + a5 (ix1 n)
  refine congrArg (· + a5 (ix1 n)) (Finset.sum_congr rfl fun k _ => ?_)
  have el : lidx_main_v4 (ix3 b r n) k = ix3 b r k :=
    funext fun a => Fin.ext (by match a with | ⟨0, _⟩ => rfl | ⟨1, _⟩ => rfl | ⟨2, _⟩ => rfl)
  have er : ridx_main_v4 (ix3 b r n) k = ix2 n k :=
    funext fun a => Fin.ext (by match a with | ⟨0, _⟩ => rfl | ⟨1, _⟩ => rfl)
  rw [el, er, ref_weight]

/-- The term the reference's run ends at, of the six argument arrays, is the layer. -/
theorem ref_is_layer (a0 : (⟨S4x2048x4096, .f32⟩ : BufTy).Contents (Elt Ideal)) (a1 : (⟨S4096x4096, .i32⟩ : BufTy).Contents (Elt Ideal)) (a2 : (⟨S4096x1, .f32⟩ : BufTy).Contents (Elt Ideal)) (a3 : (⟨S4096x4096, .f32⟩ : BufTy).Contents (Elt Ideal)) (a4 : (⟨S4096x4096, .i1⟩ : BufTy).Contents (Elt Ideal)) (a5 : (⟨S4096, .f32⟩ : BufTy).Contents (Elt Ideal)) :
    addf (F := Ideal) (Host.dotGeneral (φ₁ := .f32) (φ₂ := .f32) dot_S4x2048x4096_S4096x4096_S4x2048x4096_2_1_01_0_n_n none (a0) (select (a4) (a3) (mulf (sitofp .f32 (a1)) (broadcastInDim S4096x4096 ![0, 1] bcast_S4096x1_S4096x4096_0_1 (a2))))) (broadcastInDim S4x2048x4096 ![0, 1, 2] bcast_S1x1x4096_S4x2048x4096_0_1_2 (broadcastInDim S1x1x4096 ![2] bcast_S4096_S1x1x4096_2 (a5)))
      = Cert.QLin.layer a0 a1 a2 a3 a4 a5 :=
  (val_main_v7_eq (F := Ideal) a0 a1 a2 a3 a4 a5).trans (ref_stage_is_layer a0 a1 a2 a3 a4 a5)

/-- The reference's run: every weakly fair execution ends with the result at the layer of the argument arrays, and the
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = Cert.QLin.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (ref_is_layer _ _ _ _ _ _), (h c).2⟩)
    (Cert.ReferenceIdeal.Value.run (F := Ideal) m ρ)

end Cert.ReferenceIdeal.RefValue

end
-- ==== Proof.lean ====
/-
  A quantized linear layer: weights stored as integers with one scale per output channel, a small set of
  full-precision outliers merged back through a mask, then input · Wᵀ + bias.

  The kernel runs two grid programs. The first reconstructs the weight matrix tile by tile (sixteen tiles of 256
  output channels): each entry is the outlier where the mask is set, else the integer times the channel's scale.
  The second multiplies: for each output tile (1024 rows × 2048 channels) it walks the 4096 input features in eight
  chunks of 512, storing the first chunk's partial products, adding each later chunk's to the running block, and
  adding the bias row after the last chunk. The reference computes the same weights on the host and contracts all
  4096 features in one product.

  Over the extended reals the two agree entry by entry: a rounding to a shorter float format is the identity, a
  matrix product into a zero accumulator is the plain sum of products, and the kernel's value
  ((c₀ + c₁) + … + c₇) + bias is the reference's (∑ over all features) + bias because a finite sum may be cut into
  consecutive chunks and re-associated freely — addition of extended reals is commutative and associative with no
  side condition, so no finiteness of the inputs is used. The host reshapes around the second program only
  re-index (row b·2048 + r of the flat array is row (b, r)).

  Each program's frame (it runs to the end on every fair schedule, faults nowhere, leaves its arguments unchanged)
  comes from one run theorem per program that ends with every buffer at contents folded forward from the launch
  memory through the host stretches and the two regions; the arguments are written by nothing on the way.
-/
import proofs.«103409_j90598040142545_2_alg».proof.Defs
import proofs.«103409_j90598040142545_2_alg».proof.Proof.Gen.Kernel
import proofs.«103409_j90598040142545_2_alg».proof.Proof.Gen.KernelIdeal
import proofs.«103409_j90598040142545_2_alg».proof.Proof.Gen.ReferenceIdeal
import proofs.«103409_j90598040142545_2_alg».proof.Proof.Gen.Pre_finite_inputs
import proofs.«103409_j90598040142545_2_alg».proof.Proof.K.Run
import proofs.«103409_j90598040142545_2_alg».proof.Proof.KI.Run
import proofs.«103409_j90598040142545_2_alg».proof.Proof.KI.Glue
import proofs.«103409_j90598040142545_2_alg».proof.Proof.KI.Val0
import proofs.«103409_j90598040142545_2_alg».proof.Proof.KI.Val1
import proofs.«103409_j90598040142545_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level program runs, faults nowhere, and leaves its arguments unchanged. -/
theorem frame_k : Cert.frame_Kernel := fun m ρ _ => Cert.Kernel.Fr.frame (F := Bits) m ρ

/-- The idealized program likewise. -/
theorem frame_ki : Cert.frame_KernelIdeal := fun m ρ _ => Cert.KernelIdeal.Fr.frame (F := Ideal) m ρ

/-- The reference likewise: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The idealization rewrote no operation. -/
theorem preserves : Cert.preserves_Kernel_KernelIdeal := trivial

/-- Both idealized programs end with the layer of the specification at the (agreeing) argument arrays. -/
theorem algebraic : Cert.algebraic_KernelIdeal_ReferenceIdeal := by
  intro m ρ m' ρ' _ hagree
  refine ⟨fun c => Cert.QLin.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Fr.run_all (F := Ideal) m ρ)
    exact ⟨(h c _ (Cert.KernelIdeal.Fr.mem_uc Cert.KernelIdeal.main_v5 (by decide))).trans
        (Cert.KernelIdeal.Fr.kernel_value m c (Cert.KernelIdeal.Fr.final0 (Cert.KernelIdeal.Fr.U1 m) c) (Cert.KernelIdeal.Fr.final1 (Cert.KernelIdeal.Fr.U3 m) c)),
      (h c _ (Cert.KernelIdeal.Fr.mem_uc Cert.KernelIdeal.main_arg0 (by decide))).trans (Cert.KernelIdeal.Fr.W5_main_arg0 m c),
      (h c _ (Cert.KernelIdeal.Fr.mem_uc Cert.KernelIdeal.main_arg1 (by decide))).trans (Cert.KernelIdeal.Fr.W5_main_arg1 m c),
      (h c _ (Cert.KernelIdeal.Fr.mem_uc Cert.KernelIdeal.main_arg2 (by decide))).trans (Cert.KernelIdeal.Fr.W5_main_arg2 m c),
      (h c _ (Cert.KernelIdeal.Fr.mem_uc Cert.KernelIdeal.main_arg3 (by decide))).trans (Cert.KernelIdeal.Fr.W5_main_arg3 m c),
      (h c _ (Cert.KernelIdeal.Fr.mem_uc Cert.KernelIdeal.main_arg4 (by decide))).trans (Cert.KernelIdeal.Fr.W5_main_arg4 m c),
      (h c _ (Cert.KernelIdeal.Fr.mem_uc Cert.KernelIdeal.main_arg5 (by decide))).trans (Cert.KernelIdeal.Fr.W5_main_arg5 m c)⟩
  · refine (θ_run Cert.ReferenceIdeal.defs _ _).mono (fun r h c => ⟨?_, (h c).2⟩) (Cert.ReferenceIdeal.RefValue.ref_run m' ρ')
    rw [(h c).1, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
